-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v105)) (v3 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v105) = v2 c
          ∧ r.2.mem ((c.tc : Thread Cert.KernelIdeal.nD Cert.KernelIdeal.τ).loc Cert.KernelIdeal.main_v81) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_v137) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S262144x128 : Shape := ⟨2, ![262144, 128]⟩
abbrev S256x256 : Shape := ⟨2, ![256, 256]⟩
abbrev S65536x3 : Shape := ⟨2, ![65536, 3]⟩
abbrev S512x256 : Shape := ⟨2, ![512, 256]⟩
abbrev S512 : Shape := ⟨1, ![512]⟩
abbrev S128x256 : Shape := ⟨2, ![128, 256]⟩
abbrev S128 : Shape := ⟨1, ![128]⟩
abbrev S256x128 : Shape := ⟨2, ![256, 128]⟩
abbrev S256 : Shape := ⟨1, ![256]⟩
abbrev S1x256 : Shape := ⟨2, ![1, 256]⟩
abbrev S1 : Shape := ⟨1, ![1]⟩
abbrev S262144 : Shape := ⟨1, ![262144]⟩
abbrev S65536 : Shape := ⟨1, ![65536]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S256x256 : S_.BroadcastsInDim S256x256 (![] : Fin 0 → Fin S256x256.rank)
  reducesTo_S256x256_S_d0_1 : S256x256.ReducesTo [0, 1] S_
  bcast_S_S65536x3 : S_.BroadcastsInDim S65536x3 (![] : Fin 0 → Fin S65536x3.rank)
  reducesTo_S65536x3_S_d0_1 : S65536x3.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S256 .f32) (main_arg15 : FVec F S1x256 .f32) (main_arg16 : FVec F S1 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S1x256 .f32 := Host.absf main_arg15
  let main_cst_28 : FVec F S_ .f32 := constant S_ .f32 0x7F800000#32
  let main_v75 : FVec F S1x256 .f32 := broadcastInDim S1x256 ![] bcast_S_S1x256 main_cst_28
  let main_v76 : IVec S1x256 1 := cmpf .olt main_v74 main_v75
  let main_c_29 : IVec S_ 1 := constantI S_ 1 1#1
  let main_v77 : IVec S_ 1 := (fun x v => Host.reduce IntOp.andi x v reducesTo_S1x256_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S256x128 .f32) (main_arg12 : FVec F S256 .f32) (main_arg13 : FVec F S256 .f32) (main_arg14 : FVec F S256 .f32) (main_arg15 : FVec F S1x256 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg11
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_v63 main_v67

def fn_part2 {F : FTy → Type} [FloatOps F] (main_arg7 : FVec F S512x256 .f32) (main_arg8 : FVec F S512 .f32) (main_arg9 : FVec F S128x256 .f32) (main_arg10 : FVec F S128 .f32) (main_arg11 : FVec F S256x128 .f32) (main_arg12 : FVec F S256 .f32) (main_arg13 : FVec F S256 .f32) (main_arg14 : FVec F S256 .f32) (main_arg15 : FVec F S1x256 .f32) (main_arg16 : FVec F S1 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_v48 main_v49 main_v50

def fn_part1 {F : FTy → Type} [FloatOps F] (main_arg4 : FVec F S65536x256 .f32) (main_arg5 : FVec F S262144x128 .f32) (main_arg6 : FVec F S65536x256 .f32) (main_arg7 : FVec F S512x256 .f32) (main_arg8 : FVec F S512 .f32) (main_arg9 : FVec F S128x256 .f32) (main_arg10 : FVec F S128 .f32) (main_arg11 : FVec F S256x128 .f32) (main_arg12 : FVec F S256 .f32) (main_arg13 : FVec F S256 .f32) (main_arg14 : FVec F S256 .f32) (main_arg15 : FVec F S1x256 .f32) (main_arg16 : FVec F S1 .f32) (main_v13 : IVec S_ 1) (main_v16 : IVec S65536x3 1) : IVec S_ 1 :=
  let main_c_5 : IVec S_ 1 := constantI S_ 1 1#1
  let main_v17 : IVec S_ 1 := (fun x v => Host.reduce IntOp.andi x v reducesTo_S65536x3_S_d0_1 h_S_) main_v16 main_c_5
  let main_v18 : IVec S_ 1 := andi main_v13 main_v17
  let main_v19 : FVec F S65536x256 .f32 := Host.absf main_arg4
  let main_cst_6 : FVec F S_ .f32 := constant S_ .f32 0x7F800000#32
  let main_v20 : FVec F S65536x256 .f32 := broadcastInDim S65536x256 ![] bcast_S_S65536x256 main_cst_6
  let main_v21 : IVec S65536x256 1 := cmpf .olt main_v19 main_v20
  let main_c_7 : IVec S_ 1 := constantI S_ 1 1#1
  let main_v22 : IVec S_ 1 := (fun x v => Host.reduce IntOp.andi x v reducesTo_S65536x256_S_d0_1 h_S_) main_v21 main_c_7
  let main_v23 : IVec S_ 1 := andi main_v18 main_v22
  let main_v24 : FVec F S262144x128 .f32 := Host.absf main_arg5
  let main_cst_8 : FVec F S_ .f32 := constant S_ .f32 0x7F800000#32
  let main_v25 : FVec F S262144x128 .f32 := broadcastInDim S262144x128 ![] bcast_S_S262144x128 main_cst_8
  let main_v26 : IVec S262144x128 1 := cmpf .olt main_v24 main_v25
  let main_c_9 : IVec S_ 1 := constantI S_ 1 1#1
  let main_v27 : IVec S_ 1 := (fun x v => Host.reduce IntOp.andi x v reducesTo_S262144x128_S_d0_1 h_S_) main_v26 main_c_9
  let main_v28 : IVec S_ 1 := andi main_v23 main_v27
  let main_v29 : FVec F S65536x256 .f32 := Host.absf main_arg6
  let main_cst_10 : FVec F S_ .f32 := constant S_ .f32 0x7F800000#32
  let main_v30 : FVec F S65536x256 .f32 := broadcastInDim S65536x256 ![] bcast_S_S65536x256 main_cst_10
  let main_v31 : IVec S65536x256 1 := cmpf .olt main_v29 main_v30
  let main_c_11 : IVec S_ 1 := constantI S_ 1 1#1
  let main_v32 : IVec S_ 1 := (fun x v => Host.reduce IntOp.andi x v reducesTo_S65536x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S65536x256 .f32) (main_arg1 : FVec F S262144x128 .f32) (main_arg2 : FVec F S256x256 .f32) (main_arg3 : FVec F S65536x3 .f32) (main_arg4 : FVec F S65536x256 .f32) (main_arg5 : FVec F S262144x128 .f32) (main_arg6 : FVec F S65536x256 .f32) (main_arg7 : FVec F S512x256 .f32) (main_arg8 : FVec F S512 .f32) (main_arg9 : FVec F S128x256 .f32) (main_arg10 : FVec F S128 .f32) (main_arg11 : FVec F S256x128 .f32) (main_arg12 : FVec F S256 .f32) (main_arg13 : FVec F S256 .f32) (main_arg14 : FVec F S256 .f32) (main_arg15 : FVec F S1x256 .f32) (main_arg16 : FVec F S1 .f32) (main_arg17 : IVec S262144 32) (main_arg18 : IVec S262144 32) (main_arg19 : IVec S65536 32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S65536x3 .f32 := Host.absf main_arg3
  let main_cst_4 : FVec F S_ .f32 := constant S_ .f32 0x7F800000#32
  let main_v15 : FVec F S65536x3 .f32 := broadcastInDim S65536x3 ![] bcast_S_S65536x3 main_cst_4
  let main_v16 : IVec S65536x3 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S65536x256 : Shape := ⟨2, ![65536, 256]⟩
abbrev S262144x128 : Shape := ⟨2, ![262144, 128]⟩
abbrev S256x256 : Shape := ⟨2, ![256, 256]⟩
abbrev S65536x3 : Shape := ⟨2, ![65536, 3]⟩
abbrev S512x256 : Shape := ⟨2, ![512, 256]⟩
abbrev S512 : Shape := ⟨1, ![512]⟩
abbrev S128x256 : Shape := ⟨2, ![128, 256]⟩
abbrev S128 : Shape := ⟨1, ![128]⟩
abbrev S256x128 : Shape := ⟨2, ![256, 128]⟩
abbrev S256 : Shape := ⟨1, ![256]⟩
abbrev S1x256 : Shape := ⟨2, ![1, 256]⟩
abbrev S1 : Shape := ⟨1, ![1]⟩
abbrev S262144 : Shape := ⟨1, ![262144]⟩
abbrev S65536 : Shape := ⟨1, ![65536]⟩
abbrev S256x512 : Shape := ⟨2, ![256, 512]⟩
abbrev S1x512 : Shape := ⟨2, ![1, 512]⟩
abbrev S1x128 : Shape := ⟨2, ![1, 128]⟩
abbrev S65536x128 : Shape := ⟨2, ![65536, 128]⟩
abbrev S1024x256 : Shape := ⟨2, ![1024, 256]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S_ : Shape := ⟨0, ![]⟩
abbrev S262144x1 : Shape := ⟨2, ![262144, 1]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩
abbrev S65536x1 : Shape := ⟨2, ![65536, 1]⟩
abbrev S256x3 : Shape := ⟨2, ![256, 3]⟩
abbrev S256x1 : Shape := ⟨2, ![256, 1]⟩
abbrev S1x1 : Shape := ⟨2, ![1, 1]⟩

abbrev nBuf : Space → Nat
  | .hbm => 158
  | .vmem => 24
  | .smem => 0
  | _ => 0

abbrev hbmTy0_0 (i : Nat) : BufTy := match i % 128 with
  | 0 => ⟨S65536x256, .f32⟩
  | 1 => ⟨S262144x128, .f32⟩
  | 2 => ⟨S256x256, .f32⟩
  | 3 => ⟨S65536x3, .f32⟩
  | 4 => ⟨S65536x256, .f32⟩
  | 5 => ⟨S262144x128, .f32⟩
  | 6 => ⟨S65536x256, .f32⟩
  | 7 => ⟨S512x256, .f32⟩
  | 8 => ⟨S512, .f32⟩
  | 9 => ⟨S128x256, .f32⟩
  | 10 => ⟨S128, .f32⟩
  | 11 => ⟨S256x128, .f32⟩
  | 12 => ⟨S256, .f32⟩
  | 13 => ⟨S256, .f32⟩
  | 14 => ⟨S256, .f32⟩
  | 15 => ⟨S1x256, .f32⟩
  | 16 => ⟨S1, .f32⟩
  | 17 => ⟨S262144, .i32⟩
  | 18 => ⟨S262144, .i32⟩
  | 19 => ⟨S65536, .i32⟩
  | 20 => ⟨S256x512, .f32⟩
  | 21 => ⟨S256x512, .bf16⟩
  | 22 => ⟨S256x128, .f32⟩
  | 23 => ⟨S256x128, .bf16⟩
  | 24 => ⟨S128x256, .f32⟩
  | 25 => ⟨S128x256, .bf16⟩
  | 26 => ⟨S1x512, .f32⟩
  | 27 => ⟨S1x128, .f32⟩
  | 28 => ⟨S1x256, .f32⟩
  | 29 => ⟨S65536x256, .f32⟩
  | 30 => ⟨S65536x128, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x128, .f32⟩
  | 40 => ⟨S_, .i32⟩
  | 41 => ⟨S262144, .i32⟩
  | 42 => ⟨S262144, .i1⟩
  | 43 => ⟨S_, .i32⟩
  | 44 => ⟨S262144, .i32⟩
  | 45 => ⟨S262144, .i32⟩
  | 46 => ⟨S262144, .i32⟩
  | 47 => ⟨S262144x1, .i32⟩
  | 48 => ⟨S262144x128, .f32⟩
  | 49 => ⟨S262144x128, .f32⟩
  | 50 => ⟨S262144x128, .f32⟩
  | 51 => ⟨S_, .f32⟩
  | 52 => ⟨S65536, .f32⟩
  | 53 => ⟨S_, .f32⟩
  | 54 => ⟨S256, .f32⟩
  | 55 => ⟨S65536x1, .i32⟩
  | 56 => ⟨S256, .f32⟩
  | 57 => ⟨S_, .f32⟩
  | 58 => ⟨S256x3, .f32⟩
  | 59 => ⟨S65536x1, .i32⟩
  | 60 => ⟨S256x3, .f32⟩
  | 61 => ⟨S256x1, .f32⟩
  | 62 => ⟨S256x3, .f32⟩
  | 63 => ⟨S256x3, .f32⟩
  | 64 => ⟨S_, .i32⟩
  | 65 => ⟨S65536, .i32⟩
  | 66 => ⟨S65536, .i1⟩
  | 67 => ⟨S_, .i32⟩
  | 68 => ⟨S65536, .i32⟩
  | 69 => ⟨S65536, .i32⟩
  | 70 => ⟨S65536, .i32⟩
  | 71 => ⟨S65536x1, .i32⟩
  | 72 => ⟨S65536x3, .f32⟩
  | 73 => ⟨S65536x3, .f32⟩
  | 74 => ⟨S65536x3, .f32⟩
  | 75 => ⟨S_, .f32⟩
  | 76 => ⟨S65536, .f32⟩
  | 77 => ⟨S_, .f32⟩
  | 78 => ⟨S256, .f32⟩
  | 79 => ⟨S65536x1, .i32⟩
  | 80 => ⟨S256, .f32⟩
  | 81 => ⟨S_, .f32⟩
  | 82 => ⟨S256, .f32⟩
  | 83 => ⟨S256, .f32⟩
  | 84 => ⟨S256, .f32⟩
  | 85 => ⟨S_, .f32⟩
  | 86 => ⟨S256, .f32⟩
  | 87 => ⟨S256, .f32⟩
  | 88 => ⟨S256, .f32⟩
  | 89 => ⟨S_, .i32⟩
  | 90 => ⟨S65536, .i32⟩
  | 91 => ⟨S65536, .i1⟩
  | 92 => ⟨S_, .i32⟩
  | 93 => ⟨S65536, .i32⟩
  | 94 => ⟨S65536, .i32⟩
  | 95 => ⟨S65536, .i32⟩
  | 96 => ⟨S65536x1, .i32⟩
  | 97 => ⟨S65536, .f32⟩
  | 98 => ⟨S65536x1, .f32⟩
  | 99 => ⟨S65536x3, .f32⟩
  | 100 => ⟨S65536x3, .f32⟩
  | 101 => ⟨S256x256, .f32⟩
  | 102 => ⟨S256x256, .f32⟩
  | 103 => ⟨S_, .f32⟩
  | 104 => ⟨S256x256, .f32⟩
  | 105 => ⟨S256x256, .f32⟩
  | 106 => ⟨S_, .f32⟩
  | 107 => ⟨S256x256, .f32⟩
  | 108 => ⟨S256x256, .f32⟩
  | 109 => ⟨S256x256, .f32⟩
  | 110 => ⟨S256x1, .f32⟩
  | 111 => ⟨S256x1, .f32⟩
  | 112 => ⟨S1x1, .f32⟩
  | 113 => ⟨S256x1, .f32⟩
  | 114 => ⟨S256x1, .f32⟩
  | 115 => ⟨S_, .f32⟩
  | 116 => ⟨S256x1, .f32⟩
  | 117 => ⟨S256x1, .f32⟩
  | 118 => ⟨S_, .i32⟩
  | 119 => ⟨S65536, .i32⟩
  | 120 => ⟨S65536, .i1⟩
  | 121 => ⟨S_, .i32⟩
  | 122 => ⟨S65536, .i32⟩
  | 123 => ⟨S65536, .i32⟩
  | 124 => ⟨S65536, .i32⟩
  | 125 => ⟨S65536x1, .i32⟩
  | 126 => ⟨S65536x1, .f32⟩
  | 127 => ⟨S65536x3, .f32⟩
  | _ => ⟨S65536x256, .f32⟩

abbrev hbmTy0_1 (i : Nat) : BufTy := match i % 128 with
  | 0 => ⟨S65536x3, .f32⟩
  | 1 => ⟨S_, .f32⟩
  | 2 => ⟨S256, .f32⟩
  | 3 => ⟨S256x1, .f32⟩
  | 4 => ⟨S_, .f32⟩
  | 5 => ⟨S256x1, .f32⟩
  | 6 => ⟨S256x1, .f32⟩
  | 7 => ⟨S256x256, .f32⟩
  | 8 => ⟨S256x256, .f32⟩
  | 9 => ⟨S256x256, .f32⟩
  | 10 => ⟨S_, .f32⟩
  | 11 => ⟨S256, .f32⟩
  | 12 => ⟨S256x1, .f32⟩
  | 13 => ⟨S_, .f32⟩
  | 14 => ⟨S256x1, .f32⟩
  | 15 => ⟨S256x1, .f32⟩
  | 16 => ⟨S256x256, .f32⟩
  | 17 => ⟨S256x256, .f32⟩
  | 18 => ⟨S_, .f32⟩
  | 19 => ⟨S256x1, .f32⟩
  | 20 => ⟨S256x1, .f32⟩
  | 21 => ⟨S256x1, .f32⟩
  | 22 => ⟨S256x256, .f32⟩
  | 23 => ⟨S256x256, .f32⟩
  | 24 => ⟨S1x256, .f32⟩
  | 25 => ⟨S256x256, .f32⟩
  | 26 => ⟨S256x256, .f32⟩
  | 27 => ⟨S1x256, .f32⟩
  | 28 => ⟨S256x256, .f32⟩
  | 29 => ⟨S256x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x512, .bf16⟩
  | .local _ .vmem, ⟨7, _⟩ => ⟨S1x512, .f32⟩
  | .local _ .vmem, ⟨8, _⟩ => ⟨S256x128, .bf16⟩
  | .local _ .vmem, ⟨9, _⟩ => ⟨S1x128, .f32⟩
  | .local _ .vmem, ⟨10, _⟩ => ⟨S1024x256, .f32⟩
  | .local _ .vmem, ⟨11, _⟩ => ⟨S1024x256, .f32⟩
  | .local _ .vmem, ⟨12, _⟩ => ⟨S1024x128, .f32⟩
  | .local _ .vmem, ⟨13, _⟩ => ⟨S1024x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S128x256, .bf16⟩
  | .local _ .vmem, ⟨21, _⟩ => ⟨S1x256, .f32⟩
  | .local _ .vmem, ⟨22, _⟩ => ⟨S2048x128, .f32⟩
  | .local _ .vmem, ⟨23, _⟩ => ⟨S2048x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_c : Ref sig .tc := ⟨.hbm, 31, rfl⟩
abbrev main_v10 : Ref sig .tc := ⟨.hbm, 32, rfl⟩
abbrev main_v11 : Ref sig .tc := ⟨.hbm, 33, rfl⟩
abbrev main_c_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_1 : Ref sig .tc := ⟨.hbm, 40, rfl⟩
abbrev main_v17 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst : Ref sig .tc := ⟨.hbm, 51, rfl⟩
abbrev main_v26 : Ref sig .tc := ⟨.hbm, 52, rfl⟩
abbrev main_cst_3 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_5 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_cst_8 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_11 : Ref sig .tc := ⟨.hbm, 89, rfl⟩
abbrev main_v55 : Ref sig .tc := ⟨.hbm, 90, rfl⟩
abbrev main_v56 : Ref sig .tc := ⟨.hbm, 91, rfl⟩
abbrev main_c_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call0_v0 : Ref sig .tc := ⟨.hbm, 101, rfl⟩
abbrev main_call0_v1 : Ref sig .tc := ⟨.hbm, 102, rfl⟩
abbrev main_call0_cst : Ref sig .tc := ⟨.hbm, 103, rfl⟩
abbrev main_call0_v2 : Ref sig .tc := ⟨.hbm, 104, rfl⟩
abbrev main_call0_v3 : Ref sig .tc := ⟨.hbm, 105, rfl⟩
abbrev main_call0_cst_0 : Ref sig .tc := ⟨.hbm, 106, rfl⟩
abbrev main_call0_v4 : Ref sig .tc := ⟨.hbm, 107, rfl⟩
abbrev main_call0_v5 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_13 : Ref sig .tc := ⟨.hbm, 115, rfl⟩
abbrev main_v71 : Ref sig .tc := ⟨.hbm, 116, rfl⟩
abbrev main_v72 : Ref sig .tc := ⟨.hbm, 117, rfl⟩
abbrev main_c_14 : Ref sig .tc := ⟨.hbm, 118, rfl⟩
abbrev main_v73 : Ref sig .tc := ⟨.hbm, 119, rfl⟩
abbrev main_v74 : Ref sig .tc := ⟨.hbm, 120, rfl⟩
abbrev main_c_15 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_16 : Ref sig .tc := ⟨.hbm, 129, rfl⟩
abbrev main_v82 : Ref sig .tc := ⟨.hbm, 130, rfl⟩
abbrev main_v83 : Ref sig .tc := ⟨.hbm, 131, rfl⟩
abbrev main_cst_17 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_18 : Ref sig .tc := ⟨.hbm, 138, rfl⟩
abbrev main_v89 : Ref sig .tc := ⟨.hbm, 139, rfl⟩
abbrev main_v90 : Ref sig .tc := ⟨.hbm, 140, rfl⟩
abbrev main_cst_19 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_20 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S512x256_S256x512_1_0 : S512x256.Transposes [1, 0] S256x512
  bitsLt_bf16_f32 : FTy.bits .bf16 < FTy.bits .f32
  transposes_S128x256_S256x128_1_0 : S128x256.Transposes [1, 0] S256x128
  transposes_S256x128_S128x256_1_0 : S256x128.Transposes [1, 0] S128x256
  shapeCasts_S512_S1x512 : S512.ShapeCasts S1x512
  shapeCasts_S128_S1x128 : S128.ShapeCasts S1x128
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x256 : S1024x512.Slices ![0, 0] S1024x256
  slices_S1024x512_o0_256_S1024x256 : S1024x512.Slices ![0, 256] S1024x256
  reduces_S1024x256_S1024 : S1024x256.Reduces [1] S1024
  shapeCasts_S1024_S1024x1 : S1024.ShapeCasts S1024x1
  broadcasts_S1024x1_S1024x256 : S1024x1.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  bcast_S_S262144 : S_.BroadcastsInDim S262144 (![] : Fin 0 → Fin S262144.rank)
  bcast_S262144_S262144x1_0 : S262144.BroadcastsInDim S262144x1 (![0] : Fin 1 → Fin S262144x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S2048x256_o0_0_S2048x128 : S2048x256.Slices ![0, 0] S2048x128
  slices_S2048x256_o0_128_S2048x128 : S2048x256.Slices ![0, 128] S2048x128
  reduces_S2048x128_S2048 : S2048x128.Reduces [1] S2048
  shapeCasts_S2048_S2048x1 : S2048.ShapeCasts S2048x1
  broadcasts_S2048x1_S2048x128 : S2048x1.Broadcasts S2048x128
  bcast_S_S65536 : S_.BroadcastsInDim S65536 (![] : Fin 0 → Fin S65536.rank)
  bcast_S_S256 : S_.BroadcastsInDim S256 (![] : Fin 0 → Fin S256.rank)
  bcast_S65536_S65536x1_0 : S65536.BroadcastsInDim S65536x1 (![0] : Fin 1 → Fin S65536x1.rank)
  bcast_S_S256x3 : S_.BroadcastsInDim S256x3 (![] : Fin 0 → Fin S256x3.rank)
  bcast_S256_S256x1_0 : S256.BroadcastsInDim S256x1 (![0] : Fin 1 → Fin S256x1.rank)
  bcast_S256x1_S256x3_0_1 : S256x1.BroadcastsInDim S256x3 (![0, 1] : Fin 2 → Fin S256x3.rank)
  reducesTo_S65536x3_S65536_d1 : S65536x3.ReducesTo [1] S65536
  h_S_ : 0 < S_.numel
  bcast_S65536x1_S65536x3_0_1 : S65536x1.BroadcastsInDim S65536x3 (![0, 1] : Fin 2 → Fin S65536x3.rank)
  bcast_S_S256x256 : S_.BroadcastsInDim S256x256 (![] : Fin 0 → Fin S256x256.rank)
  transposes_S1x256_S256x1_1_0 : S1x256.Transposes [1, 0] S256x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  reducesTo_S256x256_S256_d1 : S256x256.ReducesTo [1] S256
  bcast_S256x1_S256x256_0_1 : S256x1.BroadcastsInDim S256x256 (![0, 1] : Fin 2 → Fin S256x256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  dot_S1024x256_S256x512_S1024x512_1_0_0_1_n_n_wf : DotDims.WF S1024x256 S256x512 S1024x512 [1] [0] [0] [1] [] []
  dot_S1024x256_S256x128_S1024x128_1_0_0_1_n_n_wf : DotDims.WF S1024x256 S256x128 S1024x128 [1] [0] [0] [1] [] []
  gather_S65536x128_S262144x1_S262144x128_1_0_n_n_0_1_1128_wf : GatherDims.WF S65536x128 S262144x1 S262144x128 [1] [0] [] [0] [] 1 ![1, 128]
  dot_S2048x128_S128x256_S2048x256_1_0_0_1_n_n_wf : DotDims.WF S2048x128 S128x256 S2048x256 [1] [0] [0] [1] [] []
  scatter_S256_S65536x1_S65536_n_0_0_1_wf : ScatterDims.WF S256 S65536x1 S65536 [] [0] [0] 1
  scatter_S256x3_S65536x1_S65536x3_1_0_0_1_wf : ScatterDims.WF S256x3 S65536x1 S65536x3 [1] [0] [0] 1
  gather_S256x3_S65536x1_S65536x3_1_0_n_n_0_1_13_wf : GatherDims.WF S256x3 S65536x1 S65536x3 [1] [0] [] [0] [] 1 ![1, 3]
  gather_S256_S65536x1_S65536_n_0_n_n_0_1_1_wf : GatherDims.WF S256 S65536x1 S65536 [] [0] [] [0] [] 1 ![1]
  dot_S256x256_S256x1_S256x1_1_0_0_1_n_n_wf : DotDims.WF S256x256 S256x1 S256x1 [1] [0] [0] [1] [] []
  gather_S256x1_S65536x1_S65536x1_1_0_n_n_0_1_11_wf : GatherDims.WF S256x1 S65536x1 S65536x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S65536x128.size a
  hwx0_8 : ∀ i : grid0.Coords, EltTy.bits .f32 = 32 ∨ (Rect.block (s := S65536x128) S1024x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S262144x128.size a
  hwx1_0 : ∀ i : grid1.Coords, EltTy.bits .f32 = 32 ∨ (Rect.block (s := S262144x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S262144x128.size a
  hwx1_1 : ∀ i : grid1.Coords, EltTy.bits .f32 = 32 ∨ (Rect.block (s := S262144x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S262144x128.size a
  hwx1_2 : ∀ i : grid1.Coords, EltTy.bits .f32 = 32 ∨ (Rect.block (s := S262144x128) S2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S262144x128.size a
  hwx1_5 : ∀ i : grid1.Coords, EltTy.bits .f32 = 32 ∨ (Rect.block (s := S262144x128) S2048x128.size (cc1_transform_5 i) (hinb1_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S65536x128_S262144x1_S262144x128_1_0_n_n_0_1_1128 : GatherDims S65536x128 S262144x1 S262144x128 where
  offsetDims := [1]
  collapsedSliceDims := [0]
  operandBatchingDims := []
  startIndicesBatchingDims := []
  startIndexMap := [0]
  indexVectorDim := 1
  sliceSizes := ![1, 128]
  wf := gather_S65536x128_S262144x1_S262144x128_1_0_n_n_0_1_1128_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def scatter_S256_S65536x1_S65536_n_0_0_1 : ScatterDims S256 S65536x1 S65536 where
  updateWindowDims := []
  insertedWindowDims := [0]
  scatterDimsToOperandDims := [0]
  indexVectorDim := 1
  wf := scatter_S256_S65536x1_S65536_n_0_0_1_wf
def scatter_S256x3_S65536x1_S65536x3_1_0_0_1 : ScatterDims S256x3 S65536x1 S65536x3 where
  updateWindowDims := [1]
  insertedWindowDims := [0]
  scatterDimsToOperandDims := [0]
  indexVectorDim := 1
  wf := scatter_S256x3_S65536x1_S65536x3_1_0_0_1_wf
def gather_S256x3_S65536x1_S65536x3_1_0_n_n_0_1_13 : GatherDims S256x3 S65536x1 S65536x3 where
  offsetDims := [1]
  collapsedSliceDims := [0]
  operandBatchingDims := []
  startIndicesBatchingDims := []
  startIndexMap := [0]
  indexVectorDim := 1
  sliceSizes := ![1, 3]
  wf := gather_S256x3_S65536x1_S65536x3_1_0_n_n_0_1_13_wf
def gather_S256_S65536x1_S65536_n_0_n_n_0_1_1 : GatherDims S256 S65536x1 S65536 where
  offsetDims := []
  collapsedSliceDims := [0]
  operandBatchingDims := []
  startIndicesBatchingDims := []
  startIndexMap := [0]
  indexVectorDim := 1
  sliceSizes := ![1]
  wf := gather_S256_S65536x1_S65536_n_0_n_n_0_1_1_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def gather_S256x1_S65536x1_S65536x1_1_0_n_n_0_1_11 : GatherDims S256x1 S65536x1 S65536x1 where
  offsetDims := [1]
  collapsedSliceDims := [0]
  operandBatchingDims := []
  startIndicesBatchingDims := []
  startIndexMap := [0]
  indexVectorDim := 1
  sliceSizes := ![1, 1]
  wf := gather_S256x1_S65536x1_S65536x1_1_0_n_n_0_1_11_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S65536x256 : Shape := ⟨2, ![65536, 256]⟩
abbrev S262144x128 : Shape := ⟨2, ![262144, 128]⟩
abbrev S256x256 : Shape := ⟨2, ![256, 256]⟩
abbrev S65536x3 : Shape := ⟨2, ![65536, 3]⟩
abbrev S512x256 : Shape := ⟨2, ![512, 256]⟩
abbrev S512 : Shape := ⟨1, ![512]⟩
abbrev S128x256 : Shape := ⟨2, ![128, 256]⟩
abbrev S128 : Shape := ⟨1, ![128]⟩
abbrev S256x128 : Shape := ⟨2, ![256, 128]⟩
abbrev S256 : Shape := ⟨1, ![256]⟩
abbrev S1x256 : Shape := ⟨2, ![1, 256]⟩
abbrev S1 : Shape := ⟨1, ![1]⟩
abbrev S262144 : Shape := ⟨1, ![262144]⟩
abbrev S65536 : Shape := ⟨1, ![65536]⟩
abbrev S_ : Shape := ⟨0, ![]⟩
abbrev S256x512 : Shape := ⟨2, ![256, 512]⟩
abbrev S65536x512 : Shape := ⟨2, ![65536, 512]⟩
abbrev S1x512 : Shape := ⟨2, ![1, 512]⟩
abbrev S65536x1 : Shape := ⟨2, ![65536, 1]⟩
abbrev S65536x128 : Shape := ⟨2, ![65536, 128]⟩
abbrev S1x128 : Shape := ⟨2, ![1, 128]⟩
abbrev S262144x1 : Shape := ⟨2, ![262144, 1]⟩
abbrev S262144x256 : Shape := ⟨2, ![262144, 256]⟩
abbrev S256x3 : Shape := ⟨2, ![256, 3]⟩
abbrev S256x1 : Shape := ⟨2, ![256, 1]⟩
abbrev S1x1 : Shape := ⟨2, ![1, 1]⟩

abbrev nBuf : Space → Nat
  | .hbm => 241
  | .vmem => 0
  | .smem => 0
  | _ => 0

abbrev hbmTy0_0 (i : Nat) : BufTy := match i % 128 with
  | 0 => ⟨S65536x256, .f32⟩
  | 1 => ⟨S262144x128, .f32⟩
  | 2 => ⟨S256x256, .f32⟩
  | 3 => ⟨S65536x3, .f32⟩
  | 4 => ⟨S65536x256, .f32⟩
  | 5 => ⟨S262144x128, .f32⟩
  | 6 => ⟨S65536x256, .f32⟩
  | 7 => ⟨S512x256, .f32⟩
  | 8 => ⟨S512, .f32⟩
  | 9 => ⟨S128x256, .f32⟩
  | 10 => ⟨S128, .f32⟩
  | 11 => ⟨S256x128, .f32⟩
  | 12 => ⟨S256, .f32⟩
  | 13 => ⟨S256, .f32⟩
  | 14 => ⟨S256, .f32⟩
  | 15 => ⟨S1x256, .f32⟩
  | 16 => ⟨S1, .f32⟩
  | 17 => ⟨S262144, .i32⟩
  | 18 => ⟨S262144, .i32⟩
  | 19 => ⟨S65536, .i32⟩
  | 20 => ⟨S65536x256, .f32⟩
  | 21 => ⟨S65536x256, .f32⟩
  | 22 => ⟨S65536x256, .f32⟩
  | 23 => ⟨S_, .f32⟩
  | 24 => ⟨S65536x256, .f32⟩
  | 25 => ⟨S65536x256, .f32⟩
  | 26 => ⟨S_, .f32⟩
  | 27 => ⟨S65536x256, .f32⟩
  | 28 => ⟨S65536x256, .f32⟩
  | 29 => ⟨S65536x256, .f32⟩
  | 30 => ⟨S256x512, .f32⟩
  | 31 => ⟨S65536x512, .f32⟩
  | 32 => ⟨S1x512, .f32⟩
  | 33 => ⟨S65536x512, .f32⟩
  | 34 => ⟨S65536x512, .f32⟩
  | 35 => ⟨S65536x256, .f32⟩
  | 36 => ⟨S65536x256, .f32⟩
  | 37 => ⟨S_, .f32⟩
  | 38 => ⟨S65536, .f32⟩
  | 39 => ⟨S65536x1, .f32⟩
  | 40 => ⟨S_, .f32⟩
  | 41 => ⟨S65536x1, .f32⟩
  | 42 => ⟨S65536x1, .f32⟩
  | 43 => ⟨S65536x256, .f32⟩
  | 44 => ⟨S65536x256, .f32⟩
  | 45 => ⟨S65536x256, .f32⟩
  | 46 => ⟨S_, .f32⟩
  | 47 => ⟨S65536, .f32⟩
  | 48 => ⟨S65536x1, .f32⟩
  | 49 => ⟨S_, .f32⟩
  | 50 => ⟨S65536x1, .f32⟩
  | 51 => ⟨S65536x1, .f32⟩
  | 52 => ⟨S65536x256, .f32⟩
  | 53 => ⟨S65536x256, .f32⟩
  | 54 => ⟨S_, .f32⟩
  | 55 => ⟨S65536x1, .f32⟩
  | 56 => ⟨S65536x1, .f32⟩
  | 57 => ⟨S65536x1, .f32⟩
  | 58 => ⟨S65536x256, .f32⟩
  | 59 => ⟨S65536x256, .f32⟩
  | 60 => ⟨S_, .f32⟩
  | 61 => ⟨S65536x256, .f32⟩
  | 62 => ⟨S65536x256, .f32⟩
  | 63 => ⟨S65536x256, .f32⟩
  | 64 => ⟨S65536x256, .f32⟩
  | 65 => ⟨S256x128, .f32⟩
  | 66 => ⟨S65536x128, .f32⟩
  | 67 => ⟨S1x128, .f32⟩
  | 68 => ⟨S65536x128, .f32⟩
  | 69 => ⟨S65536x128, .f32⟩
  | 70 => ⟨S_, .i32⟩
  | 71 => ⟨S262144, .i32⟩
  | 72 => ⟨S262144, .i1⟩
  | 73 => ⟨S_, .i32⟩
  | 74 => ⟨S262144, .i32⟩
  | 75 => ⟨S262144, .i32⟩
  | 76 => ⟨S262144, .i32⟩
  | 77 => ⟨S262144x1, .i32⟩
  | 78 => ⟨S262144x128, .f32⟩
  | 79 => ⟨S_, .i32⟩
  | 80 => ⟨S262144, .i32⟩
  | 81 => ⟨S262144, .i1⟩
  | 82 => ⟨S_, .i32⟩
  | 83 => ⟨S262144, .i32⟩
  | 84 => ⟨S262144, .i32⟩
  | 85 => ⟨S262144, .i32⟩
  | 86 => ⟨S262144x1, .i32⟩
  | 87 => ⟨S262144x128, .f32⟩
  | 88 => ⟨S262144x128, .f32⟩
  | 89 => ⟨S262144x128, .f32⟩
  | 90 => ⟨S262144x128, .f32⟩
  | 91 => ⟨S262144x128, .f32⟩
  | 92 => ⟨S_, .f32⟩
  | 93 => ⟨S262144x128, .f32⟩
  | 94 => ⟨S262144x128, .f32⟩
  | 95 => ⟨S_, .f32⟩
  | 96 => ⟨S262144x128, .f32⟩
  | 97 => ⟨S262144x128, .f32⟩
  | 98 => ⟨S262144x128, .f32⟩
  | 99 => ⟨S128x256, .f32⟩
  | 100 => ⟨S262144x256, .f32⟩
  | 101 => ⟨S1x256, .f32⟩
  | 102 => ⟨S262144x256, .f32⟩
  | 103 => ⟨S262144x256, .f32⟩
  | 104 => ⟨S262144x128, .f32⟩
  | 105 => ⟨S262144x128, .f32⟩
  | 106 => ⟨S_, .f32⟩
  | 107 => ⟨S262144, .f32⟩
  | 108 => ⟨S262144x1, .f32⟩
  | 109 => ⟨S_, .f32⟩
  | 110 => ⟨S262144x1, .f32⟩
  | 111 => ⟨S262144x1, .f32⟩
  | 112 => ⟨S262144x128, .f32⟩
  | 113 => ⟨S262144x128, .f32⟩
  | 114 => ⟨S262144x128, .f32⟩
  | 115 => ⟨S_, .f32⟩
  | 116 => ⟨S262144, .f32⟩
  | 117 => ⟨S262144x1, .f32⟩
  | 118 => ⟨S_, .f32⟩
  | 119 => ⟨S262144x1, .f32⟩
  | 120 => ⟨S262144x1, .f32⟩
  | 121 => ⟨S262144x128, .f32⟩
  | 122 => ⟨S262144x128, .f32⟩
  | 123 => ⟨S_, .f32⟩
  | 124 => ⟨S262144x1, .f32⟩
  | 125 => ⟨S262144x1, .f32⟩
  | 126 => ⟨S262144x1, .f32⟩
  | 127 => ⟨S262144x128, .f32⟩
  | _ => ⟨S65536x256, .f32⟩

abbrev hbmTy0_1 (i : Nat) : BufTy := match i % 128 with
  | 0 => ⟨S262144x128, .f32⟩
  | 1 => ⟨S_, .f32⟩
  | 2 => ⟨S262144x128, .f32⟩
  | 3 => ⟨S262144x128, .f32⟩
  | 4 => ⟨S262144x128, .f32⟩
  | 5 => ⟨S262144x128, .f32⟩
  | 6 => ⟨S_, .f32⟩
  | 7 => ⟨S65536, .f32⟩
  | 8 => ⟨S_, .f32⟩
  | 9 => ⟨S256, .f32⟩
  | 10 => ⟨S65536x1, .i32⟩
  | 11 => ⟨S256, .f32⟩
  | 12 => ⟨S_, .f32⟩
  | 13 => ⟨S256x3, .f32⟩
  | 14 => ⟨S65536x1, .i32⟩
  | 15 => ⟨S256x3, .f32⟩
  | 16 => ⟨S256x1, .f32⟩
  | 17 => ⟨S256x3, .f32⟩
  | 18 => ⟨S256x3, .f32⟩
  | 19 => ⟨S_, .i32⟩
  | 20 => ⟨S65536, .i32⟩
  | 21 => ⟨S65536, .i1⟩
  | 22 => ⟨S_, .i32⟩
  | 23 => ⟨S65536, .i32⟩
  | 24 => ⟨S65536, .i32⟩
  | 25 => ⟨S65536, .i32⟩
  | 26 => ⟨S65536x1, .i32⟩
  | 27 => ⟨S65536x3, .f32⟩
  | 28 => ⟨S65536x3, .f32⟩
  | 29 => ⟨S65536x3, .f32⟩
  | 30 => ⟨S_, .f32⟩
  | 31 => ⟨S65536, .f32⟩
  | 32 => ⟨S_, .f32⟩
  | 33 => ⟨S256, .f32⟩
  | 34 => ⟨S65536x1, .i32⟩
  | 35 => ⟨S256, .f32⟩
  | 36 => ⟨S_, .f32⟩
  | 37 => ⟨S256, .f32⟩
  | 38 => ⟨S256, .f32⟩
  | 39 => ⟨S256, .f32⟩
  | 40 => ⟨S_, .f32⟩
  | 41 => ⟨S256, .f32⟩
  | 42 => ⟨S256, .f32⟩
  | 43 => ⟨S256, .f32⟩
  | 44 => ⟨S_, .i32⟩
  | 45 => ⟨S65536, .i32⟩
  | 46 => ⟨S65536, .i1⟩
  | 47 => ⟨S_, .i32⟩
  | 48 => ⟨S65536, .i32⟩
  | 49 => ⟨S65536, .i32⟩
  | 50 => ⟨S65536, .i32⟩
  | 51 => ⟨S65536x1, .i32⟩
  | 52 => ⟨S65536, .f32⟩
  | 53 => ⟨S65536x1, .f32⟩
  | 54 => ⟨S65536x3, .f32⟩
  | 55 => ⟨S65536x3, .f32⟩
  | 56 => ⟨S256x256, .f32⟩
  | 57 => ⟨S256x256, .f32⟩
  | 58 => ⟨S_, .f32⟩
  | 59 => ⟨S256x256, .f32⟩
  | 60 => ⟨S256x256, .f32⟩
  | 61 => ⟨S_, .f32⟩
  | 62 => ⟨S256x256, .f32⟩
  | 63 => ⟨S256x256, .f32⟩
  | 64 => ⟨S256x256, .f32⟩
  | 65 => ⟨S256x1, .f32⟩
  | 66 => ⟨S256x1, .f32⟩
  | 67 => ⟨S1x1, .f32⟩
  | 68 => ⟨S256x1, .f32⟩
  | 69 => ⟨S256x1, .f32⟩
  | 70 => ⟨S_, .f32⟩
  | 71 => ⟨S256x1, .f32⟩
  | 72 => ⟨S256x1, .f32⟩
  | 73 => ⟨S_, .i32⟩
  | 74 => ⟨S65536, .i32⟩
  | 75 => ⟨S65536, .i1⟩
  | 76 => ⟨S_, .i32⟩
  | 77 => ⟨S65536, .i32⟩
  | 78 => ⟨S65536, .i32⟩
  | 79 => ⟨S65536, .i32⟩
  | 80 => ⟨S65536x1, .i32⟩
  | 81 => ⟨S65536x1, .f32⟩
  | 82 => ⟨S65536x3, .f32⟩
  | 83 => ⟨S65536x3, .f32⟩
  | 84 => ⟨S_, .f32⟩
  | 85 => ⟨S256, .f32⟩
  | 86 => ⟨S256x1, .f32⟩
  | 87 => ⟨S_, .f32⟩
  | 88 => ⟨S256x1, .f32⟩
  | 89 => ⟨S256x1, .f32⟩
  | 90 => ⟨S256x256, .f32⟩
  | 91 => ⟨S256x256, .f32⟩
  | 92 => ⟨S256x256, .f32⟩
  | 93 => ⟨S_, .f32⟩
  | 94 => ⟨S256, .f32⟩
  | 95 => ⟨S256x1, .f32⟩
  | 96 => ⟨S_, .f32⟩
  | 97 => ⟨S256x1, .f32⟩
  | 98 => ⟨S256x1, .f32⟩
  | 99 => ⟨S256x256, .f32⟩
  | 100 => ⟨S256x256, .f32⟩
  | 101 => ⟨S_, .f32⟩
  | 102 => ⟨S256x1, .f32⟩
  | 103 => ⟨S256x1, .f32⟩
  | 104 => ⟨S256x1, .f32⟩
  | 105 => ⟨S256x256, .f32⟩
  | 106 => ⟨S256x256, .f32⟩
  | 107 => ⟨S1x256, .f32⟩
  | 108 => ⟨S256x256, .f32⟩
  | 109 => ⟨S256x256, .f32⟩
  | 110 => ⟨S1x256, .f32⟩
  | 111 => ⟨S256x256, .f32⟩
  | 112 => ⟨S256x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_cst_0 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c : Ref sig .tc := ⟨.hbm, 70, rfl⟩
abbrev main_v36 : Ref sig .tc := ⟨.hbm, 71, rfl⟩
abbrev main_v37 : Ref sig .tc := ⟨.hbm, 72, rfl⟩
abbrev main_c_5 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_c_6 : Ref sig .tc := ⟨.hbm, 79, rfl⟩
abbrev main_v43 : Ref sig .tc := ⟨.hbm, 80, rfl⟩
abbrev main_v44 : Ref sig .tc := ⟨.hbm, 81, rfl⟩
abbrev main_c_7 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_8 : Ref sig .tc := ⟨.hbm, 106, rfl⟩
abbrev main_v60 : Ref sig .tc := ⟨.hbm, 107, rfl⟩
abbrev main_v61 : Ref sig .tc := ⟨.hbm, 108, rfl⟩
abbrev main_cst_9 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_cst_10 : Ref sig .tc := ⟨.hbm, 115, rfl⟩
abbrev main_v67 : Ref sig .tc := ⟨.hbm, 116, rfl⟩
abbrev main_v68 : Ref sig .tc := ⟨.hbm, 117, rfl⟩
abbrev main_cst_11 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_12 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_13 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_14 : Ref sig .tc := ⟨.hbm, 134, rfl⟩
abbrev main_v82 : Ref sig .tc := ⟨.hbm, 135, rfl⟩
abbrev main_cst_15 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_cst_16 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_c_17 : Ref sig .tc := ⟨.hbm, 147, rfl⟩
abbrev main_v92 : Ref sig .tc := ⟨.hbm, 148, rfl⟩
abbrev main_v93 : Ref sig .tc := ⟨.hbm, 149, rfl⟩
abbrev main_c_18 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_cst_19 : Ref sig .tc := ⟨.hbm, 158, rfl⟩
abbrev main_v101 : Ref sig .tc := ⟨.hbm, 159, rfl⟩
abbrev main_cst_20 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_21 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_cst_22 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_c_23 : Ref sig .tc := ⟨.hbm, 172, rfl⟩
abbrev main_v111 : Ref sig .tc := ⟨.hbm, 173, rfl⟩
abbrev main_v112 : Ref sig .tc := ⟨.hbm, 174, rfl⟩
abbrev main_c_24 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_call2_v0 : Ref sig .tc := ⟨.hbm, 184, rfl⟩
abbrev main_call2_v1 : Ref sig .tc := ⟨.hbm, 185, rfl⟩
abbrev main_call2_cst : Ref sig .tc := ⟨.hbm, 186, rfl⟩
abbrev main_call2_v2 : Ref sig .tc := ⟨.hbm, 187, rfl⟩
abbrev main_call2_v3 : Ref sig .tc := ⟨.hbm, 188, rfl⟩
abbrev main_call2_cst_0 : Ref sig .tc := ⟨.hbm, 189, rfl⟩
abbrev main_call2_v4 : Ref sig .tc := ⟨.hbm, 190, rfl⟩
abbrev main_call2_v5 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_cst_25 : Ref sig .tc := ⟨.hbm, 198, rfl⟩
abbrev main_v127 : Ref sig .tc := ⟨.hbm, 199, rfl⟩
abbrev main_v128 : Ref sig .tc := ⟨.hbm, 200, rfl⟩
abbrev main_c_26 : Ref sig .tc := ⟨.hbm, 201, rfl⟩
abbrev main_v129 : Ref sig .tc := ⟨.hbm, 202, rfl⟩
abbrev main_v130 : Ref sig .tc := ⟨.hbm, 203, rfl⟩
abbrev main_c_27 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_cst_28 : Ref sig .tc := ⟨.hbm, 212, rfl⟩
abbrev main_v138 : Ref sig .tc := ⟨.hbm, 213, rfl⟩
abbrev main_v139 : Ref sig .tc := ⟨.hbm, 214, rfl⟩
abbrev main_cst_29 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_cst_30 : Ref sig .tc := ⟨.hbm, 221, rfl⟩
abbrev main_v145 : Ref sig .tc := ⟨.hbm, 222, rfl⟩
abbrev main_v146 : Ref sig .tc := ⟨.hbm, 223, rfl⟩
abbrev main_cst_31 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_cst_32 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩

abbrev nD : Nat := 1
abbrev τ : Topo := Topo.v7x

variable {F : FTy → Type} [FloatOps F]

class Facts₀ : Prop where
  bcast_S_S65536x256 : S_.BroadcastsInDim S65536x256 (![] : Fin 0 → Fin S65536x256.rank)
  transposes_S512x256_S256x512_1_0 : S512x256.Transposes [1, 0] S256x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S65536x512_S65536x256_0_0 : S65536x512.Slices ![0, 0] S65536x256
  slices_S65536x512_S65536x256_0_256 : S65536x512.Slices ![0, 256] S65536x256
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x256_0_1 : S65536x1.BroadcastsInDim S65536x256 (![0, 1] : Fin 2 → Fin S65536x256.rank)
  transposes_S128x256_S256x128_1_0 : S128x256.Transposes [1, 0] S256x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S262144 : S_.BroadcastsInDim S262144 (![] : Fin 0 → Fin S262144.rank)
  bcast_S262144_S262144x1_0 : S262144.BroadcastsInDim S262144x1 (![0] : Fin 1 → Fin S262144x1.rank)
  bcast_S_S262144x128 : S_.BroadcastsInDim S262144x128 (![] : Fin 0 → Fin S262144x128.rank)
  transposes_S256x128_S128x256_1_0 : S256x128.Transposes [1, 0] S128x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S262144x256_S262144x128_0_0 : S262144x256.Slices ![0, 0] S262144x128
  slices_S262144x256_S262144x128_0_128 : S262144x256.Slices ![0, 128] S262144x128
  reducesTo_S262144x128_S262144_d1 : S262144x128.ReducesTo [1] S262144
  bcast_S_S262144x1 : S_.BroadcastsInDim S262144x1 (![] : Fin 0 → Fin S262144x1.rank)
  bcast_S262144x1_S262144x128_0_1 : S262144x1.BroadcastsInDim S262144x128 (![0, 1] : Fin 2 → Fin S262144x128.rank)
  bcast_S_S65536 : S_.BroadcastsInDim S65536 (![] : Fin 0 → Fin S65536.rank)
  bcast_S_S256 : S_.BroadcastsInDim S256 (![] : Fin 0 → Fin S256.rank)
  bcast_S_S256x3 : S_.BroadcastsInDim S256x3 (![] : Fin 0 → Fin S256x3.rank)
  bcast_S256_S256x1_0 : S256.BroadcastsInDim S256x1 (![0] : Fin 1 → Fin S256x1.rank)
  bcast_S256x1_S256x3_0_1 : S256x1.BroadcastsInDim S256x3 (![0, 1] : Fin 2 → Fin S256x3.rank)
  reducesTo_S65536x3_S65536_d1 : S65536x3.ReducesTo [1] S65536
  bcast_S65536x1_S65536x3_0_1 : S65536x1.BroadcastsInDim S65536x3 (![0, 1] : Fin 2 → Fin S65536x3.rank)
  bcast_S_S256x256 : S_.BroadcastsInDim S256x256 (![] : Fin 0 → Fin S256x256.rank)
  transposes_S1x256_S256x1_1_0 : S1x256.Transposes [1, 0] S256x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  reducesTo_S256x256_S256_d1 : S256x256.ReducesTo [1] S256
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  dot_S65536x256_S256x512_S65536x512_1_0_0_1_n_n_wf : DotDims.WF S65536x256 S256x512 S65536x512 [1] [0] [0] [1] [] []
  dot_S65536x256_S256x128_S65536x128_1_0_0_1_n_n_wf : DotDims.WF S65536x256 S256x128 S65536x128 [1] [0] [0] [1] [] []
  gather_S65536x128_S262144x1_S262144x128_1_0_n_n_0_1_1128_wf : GatherDims.WF S65536x128 S262144x1 S262144x128 [1] [0] [] [0] [] 1 ![1, 128]
  dot_S262144x128_S128x256_S262144x256_1_0_0_1_n_n_wf : DotDims.WF S262144x128 S128x256 S262144x256 [1] [0] [0] [1] [] []
  scatter_S256_S65536x1_S65536_n_0_0_1_wf : ScatterDims.WF S256 S65536x1 S65536 [] [0] [0] 1
  scatter_S256x3_S65536x1_S65536x3_1_0_0_1_wf : ScatterDims.WF S256x3 S65536x1 S65536x3 [1] [0] [0] 1
  gather_S256x3_S65536x1_S65536x3_1_0_n_n_0_1_13_wf : GatherDims.WF S256x3 S65536x1 S65536x3 [1] [0] [] [0] [] 1 ![1, 3]
  gather_S256_S65536x1_S65536_n_0_n_n_0_1_1_wf : GatherDims.WF S256 S65536x1 S65536 [] [0] [] [0] [] 1 ![1]
  dot_S256x256_S256x1_S256x1_1_0_0_1_n_n_wf : DotDims.WF S256x256 S256x1 S256x1 [1] [0] [0] [1] [] []
  gather_S256x1_S65536x1_S65536x1_1_0_n_n_0_1_11_wf : GatherDims.WF S256x1 S65536x1 S65536x1 [1] [0] [] [0] [] 1 ![1, 1]

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def gather_S65536x128_S262144x1_S262144x128_1_0_n_n_0_1_1128 : GatherDims S65536x128 S262144x1 S262144x128 where
  offsetDims := [1]
  collapsedSliceDims := [0]
  operandBatchingDims := []
  startIndicesBatchingDims := []
  startIndexMap := [0]
  indexVectorDim := 1
  sliceSizes := ![1, 128]
  wf := gather_S65536x128_S262144x1_S262144x128_1_0_n_n_0_1_1128_wf
def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def scatter_S256_S65536x1_S65536_n_0_0_1 : ScatterDims S256 S65536x1 S65536 where
  updateWindowDims := []
  insertedWindowDims := [0]
  scatterDimsToOperandDims := [0]
  indexVectorDim := 1
  wf := scatter_S256_S65536x1_S65536_n_0_0_1_wf
def scatter_S256x3_S65536x1_S65536x3_1_0_0_1 : ScatterDims S256x3 S65536x1 S65536x3 where
  updateWindowDims := [1]
  insertedWindowDims := [0]
  scatterDimsToOperandDims := [0]
  indexVectorDim := 1
  wf := scatter_S256x3_S65536x1_S65536x3_1_0_0_1_wf
def gather_S256x3_S65536x1_S65536x3_1_0_n_n_0_1_13 : GatherDims S256x3 S65536x1 S65536x3 where
  offsetDims := [1]
  collapsedSliceDims := [0]
  operandBatchingDims := []
  startIndicesBatchingDims := []
  startIndexMap := [0]
  indexVectorDim := 1
  sliceSizes := ![1, 3]
  wf := gather_S256x3_S65536x1_S65536x3_1_0_n_n_0_1_13_wf
def gather_S256_S65536x1_S65536_n_0_n_n_0_1_1 : GatherDims S256 S65536x1 S65536 where
  offsetDims := []
  collapsedSliceDims := [0]
  operandBatchingDims := []
  startIndicesBatchingDims := []
  startIndexMap := [0]
  indexVectorDim := 1
  sliceSizes := ![1]
  wf := gather_S256_S65536x1_S65536_n_0_n_n_0_1_1_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def gather_S256x1_S65536x1_S65536x1_1_0_n_n_0_1_11 : GatherDims S256x1 S65536x1 S65536x1 where
  offsetDims := [1]
  collapsedSliceDims := [0]
  operandBatchingDims := []
  startIndicesBatchingDims := []
  startIndexMap := [0]
  indexVectorDim := 1
  sliceSizes := ![1, 1]
  wf := gather_S256x1_S65536x1_S65536x1_1_0_n_n_0_1_11_wf

class Facts : Prop extends Facts₀ where

variable [Facts]
-- ==== Proof.KernelRun.lean ====
/-
  The idealized kernel program's run, with every buffer's final contents named.

  The program is five stretches of host operations around two kernel regions. Its run ends with every buffer the
  program keeps at the contents `W7`: the launch memory pushed through the first stretch, the first region's
  write-backs, the second stretch, the second region's write-backs and the three last stretches. This module only
  states that run with the final contents of ALL buffers in its conclusion (the frame statement keeps the argument
  arrays only); what those contents are, result by result, is read in the modules that follow.
-/
import proofs.«160367_j17669495456065_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every kept buffer of every device
    at `W7`: the segments' chain, launched, and the last thread state read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Run

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibKeepdims.lean ====
/-
  Row statistics kept as a column.

  A row-wise reduction of an `[a, b]` matrix gives one number per row; kept as an `[a, 1]` column and broadcast
  back over the `b` columns, every entry of row `p` sees row `p`'s number. These are the three index facts of
  that pattern: the reduced index with the column put back, the vector cast to a column, the column broadcast
  over the columns.
-/
import Idealize.ShloMosaic.PureOps.Ideal
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- The row index `p` with column `k` put back is `(p, k)`. -/
theorem lift_row {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the columns of an `[a, b]` matrix, read at row `p`, is the sum of that row's entries. -/
theorem rowSum_apply {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-- An `[a]` vector cast to an `[a, 1]` column reads, at `(p, u)`, the vector at `p`. -/
theorem shapeCast_a_a1_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.RowSpec.lean ====
/-
  The mathematics of one row, on the extended reals.

  Both programs compute, row by row, an adaptive layer normalisation: a row `x` of features is centred and scaled
  by its own mean and variance, then modulated by a scale and a shift that are affine functions of a conditioning
  row `h` (itself `silu` of a sum of two input rows): `norm(x)_j * (1 + scale_j) + shift_j`. Nothing here mentions
  a program: a row is a function on a finite index type, and every operation is the exact one on the extended reals
  (the quotient `Ideal.div`, the reciprocal square root `Ideal.rsqrt`, the logistic function `Ideal.logistic`).
-/
import Idealize.ShloMosaic.PureOps.Ideal

noncomputable section

namespace Cert.RowSpec

open Idealize.ShloMosaic

/-- `silu z = z · logistic z`. -/
def silu (z : EReal) : EReal := z * Ideal.logistic z

/-- `silu` of a sum of two numbers (the conditioning rows enter as a sum). -/
def siluSum (a b : EReal) : EReal := silu (a + b)

/-- The mean of a row: its sum over `n` (the row's length as the program's float constant). -/
def rowMean {D : Nat} (n : EReal) (x : Fin D → EReal) : EReal := Ideal.div (∑ k, x k) n

/-- The (biased) variance of a row: the mean of the squared deviations from the mean. -/
def rowVar {D : Nat} (n : EReal) (x : Fin D → EReal) : EReal :=
  Ideal.div (∑ k, (x k - rowMean n x) * (x k - rowMean n x)) n

/-- The row normalised: each entry's deviation from the mean times `rsqrt (var + ε)`. -/
def rowNorm {D : Nat} (n ε : EReal) (x : Fin D → EReal) (j : Fin D) : EReal :=
  (x j - rowMean n x) * Ideal.rsqrt (rowVar n x + ε)

/-- An affine functional of a row: `∑ k, h k · w k + b`. -/
def affine {K : Nat} (h w : Fin K → EReal) (b : EReal) : EReal := (∑ k, h k * w k) + b

/-- The modulated normalisation at entry `j`: `norm(x)_j · (1 + scale) + shift`, scale and shift affine in `h`. -/
def modulated {D K : Nat} (n ε one : EReal) (x : Fin D → EReal) (j : Fin D) (h wShift wScale : Fin K → EReal)
    (bShift bScale : EReal) : EReal :=
  rowNorm n ε x j * (one + affine h wScale bScale) + affine h wShift bShift

/-! ## The programs' float constants, as their exact values, and the two halves of a modulation row -/

/-- The row lengths as the programs' float constants (256.0 and 128.0), the variance floor (the float nearest 1e-5)
    and 1.0: kept as their words — the same word denotes the same number on both sides. -/
abbrev c256 : EReal := Ideal.ofBits .f32 0x43800000#32
abbrev c128 : EReal := Ideal.ofBits .f32 0x43000000#32
abbrev cEps : EReal := Ideal.ofBits .f32 0x3727C5AC#32
abbrev cOne : EReal := Ideal.ofBits .f32 0x3F800000#32

/-- A modulation row of length `2·D` holds the shifts in its first half and the scales in its second. -/
abbrev shiftCol256 (j : Fin 256) : Fin 512 := ⟨j.val, by have := j.isLt; omega⟩
abbrev scaleCol256 (j : Fin 256) : Fin 512 := ⟨256 + j.val, by have := j.isLt; omega⟩
abbrev shiftCol128 (j : Fin 128) : Fin 256 := ⟨j.val, by have := j.isLt; omega⟩
abbrev scaleCol128 (j : Fin 128) : Fin 256 := ⟨128 + j.val, by have := j.isLt; omega⟩

end Cert.RowSpec

end
-- ==== Proof.LibRowNorm.lean ====
/-
  Layer normalisation of the rows of a block, read at an entry.

  A vector program normalises the rows of an `[a, b]` block the usual way: the row sums (a reduction along the
  columns) kept as an `[a, 1]` column, divided by the row length `n`, broadcast back and subtracted; the same for the
  squared deviations; then the deviation times `rsqrt (variance + ε)`. Read at entry `(p, j)` on the extended reals
  this is the textbook normalisation of row `p` at `j` (`Cert.RowSpec.rowNorm`): only row `p` is involved.
-/
import proofs.«160367_j17669495456065_1_alg».proof.Proof.LibKeepdims
import proofs.«160367_j17669495456065_1_alg».proof.Proof.RowSpec

noncomputable section

namespace Idealize.ShloMosaic.RowNorm

open Idealize.ShloMosaic Idealize.ShloMosaic.ValueIdx Idealize.ShloMosaic.Keepdims Cert.RowSpec

variable {a b : Nat}

/-- The rows' means as an `[a, 1]` column: row sums, cast to a column, over `n`. -/
def meanCol (x : FVec Ideal ⟨2, ![a, b]⟩ .f32) (n : Ideal .f32) (acc : BitVec (FTy.f32).bits)
    (hr : (⟨2, ![a, b]⟩ : Shape).Reduces [1] (⟨1, ![a]⟩ : Shape)) (hφ : FKind.Formats .f32)
    (hacc : acc = FKind.add.neutral .f32 hφ) (hc : (⟨1, ![a]⟩ : Shape).ShapeCasts ⟨2, ![a, 1]⟩) :
    FVec Ideal ⟨2, ![a, 1]⟩ .f32 :=
  divf (shapeCast ⟨2, ![a, 1]⟩ (multiReduction .add [1] ⟨1, ![a]⟩ x acc hr hφ hacc) hc) (broadcast ⟨2, ![a, 1]⟩ n)

theorem meanCol_apply (x : FVec Ideal ⟨2, ![a, b]⟩ .f32) (n : Ideal .f32) (acc : BitVec (FTy.f32).bits)
    (hr : (⟨2, ![a, b]⟩ : Shape).Reduces [1] (⟨1, ![a]⟩ : Shape)) (hφ : FKind.Formats .f32)
    (hacc : acc = FKind.add.neutral .f32 hφ) (hc : (⟨1, ![a]⟩ : Shape).ShapeCasts ⟨2, ![a, 1]⟩)
    (p : Fin a) (u : Fin 1) :
    meanCol x n acc hr hφ hacc hc (ix2 p u) = rowMean n fun k => x (ix2 p k) := by
  show Ideal.div (shapeCast ⟨2, ![a, 1]⟩ (multiReduction .add [1] ⟨1, ![a]⟩ x acc hr hφ hacc) hc (ix2 p u)) n = _
  rw [shapeCast_a_a1_apply, rowSum_apply]
  rfl

/-- Each entry's deviation from its row's mean. -/
def centred (x : FVec Ideal ⟨2, ![a, b]⟩ .f32) (n : Ideal .f32) (acc : BitVec (FTy.f32).bits)
    (hr : (⟨2, ![a, b]⟩ : Shape).Reduces [1] (⟨1, ![a]⟩ : Shape)) (hφ : FKind.Formats .f32)
    (hacc : acc = FKind.add.neutral .f32 hφ) (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  subf x (broadcastTo ⟨2, ![a, b]⟩ (meanCol x n acc hr hφ hacc hc) hb)

theorem centred_apply (x : FVec Ideal ⟨2, ![a, b]⟩ .f32) (n : Ideal .f32) (acc : BitVec (FTy.f32).bits)
    (hr : (⟨2, ![a, b]⟩ : Shape).Reduces [1] (⟨1, ![a]⟩ : Shape)) (hφ : FKind.Formats .f32)
    (hacc : acc = FKind.add.neutral .f32 hφ) (hc : (⟨1, ![a]⟩ : Shape).ShapeCasts ⟨2, ![a, 1]⟩)
    (hb : (⟨2, ![a, 1]⟩ : Shape).Broadcasts ⟨2, ![a, b]⟩) (p : Fin a) (j : Fin b) :
    centred x n acc hr hφ hacc hc hb (ix2 p j) = x (ix2 p j) - rowMean n fun k => x (ix2 p k) := by
  show x (ix2 p j) - broadcastTo ⟨2, ![a, b]⟩ (meanCol x n acc hr hφ hacc hc) hb (ix2 p j) = _
  rw [broadcastTo_a1_ab_apply, meanCol_apply]

/-- The normalised block: the deviations times `rsqrt` of the rows' variances plus `ε`. -/
def normalised (x : FVec Ideal ⟨2, ![a, b]⟩ .f32) (n ε : Ideal .f32) (acc : BitVec (FTy.f32).bits)
    (hr : (⟨2, ![a, b]⟩ : Shape).Reduces [1] (⟨1, ![a]⟩ : Shape)) (hφ : FKind.Formats .f32)
    (hacc : acc = FKind.add.neutral .f32 hφ) (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  mulf (centred x n acc hr hφ hacc hc hb)
    (broadcastTo ⟨2, ![a, b]⟩
      (rsqrt (addf (meanCol (mulf (centred x n acc hr hφ hacc hc hb) (centred x n acc hr hφ hacc hc hb)) n acc hr hφ hacc hc)
        (broadcast ⟨2, ![a, 1]⟩ ε))) hb)

theorem normalised_apply (x : FVec Ideal ⟨2, ![a, b]⟩ .f32) (n ε : Ideal .f32) (acc : BitVec (FTy.f32).bits)
    (hr : (⟨2, ![a, b]⟩ : Shape).Reduces [1] (⟨1, ![a]⟩ : Shape)) (hφ : FKind.Formats .f32)
    (hacc : acc = FKind.add.neutral .f32 hφ) (hc : (⟨1, ![a]⟩ : Shape).ShapeCasts ⟨2, ![a, 1]⟩)
    (hb : (⟨2, ![a, 1]⟩ : Shape).Broadcasts ⟨2, ![a, b]⟩) (p : Fin a) (j : Fin b) :
    normalised x n ε acc hr hφ hacc hc hb (ix2 p j) = rowNorm n ε (fun k => x (ix2 p k)) j := by
  show centred x n acc hr hφ hacc hc hb (ix2 p j)
      * broadcastTo ⟨2, ![a, b]⟩ (rsqrt (addf (meanCol (mulf (centred x n acc hr hφ hacc hc hb)
          (centred x n acc hr hφ hacc hc hb)) n acc hr hφ hacc hc) (broadcast ⟨2, ![a, 1]⟩ ε))) hb (ix2 p j) = _
  rw [broadcastTo_a1_ab_apply, centred_apply]
  show _ * Ideal.rsqrt (meanCol (mulf (centred x n acc hr hφ hacc hc hb) (centred x n acc hr hφ hacc hc hb)) n acc hr hφ hacc hc
      (ix2 p (0 : Fin 1)) + ε) = _
  rw [meanCol_apply]
  unfold rowNorm rowVar
  refine congrArg (fun s => _ * Ideal.rsqrt (Ideal.div s n + ε)) (Finset.sum_congr rfl fun k _ => ?_)
  show centred x n acc hr hφ hacc hc hb (ix2 p k) * centred x n acc hr hφ hacc hc hb (ix2 p k) = _
  rw [centred_apply]

end Idealize.ShloMosaic.RowNorm

end
-- ==== Proof.NodeBody.lean ====
/-
  The node kernel's two stores, read at an entry.

  At a grid point the node kernel holds a block of 1024 rows of `fv`, `fv_c`, `fv_pos_c`, the whole transposed weight
  matrices and the bias rows. Its first store is the adaptive layer normalisation of the block's rows of `fv`,
  modulated by the affine image of `silu (fv_c + fv_pos_c)` under the 256×512 weights (shifts in columns 0..255, scales
  in columns 256..511); its second store is the affine image of the rows of `fv_pos_c` under the 256×128 weights.
  Entry `(p, j)` of either depends on row `p` of the blocks only.
-/
import proofs.«160367_j17669495456065_1_alg».proof.Proof.Gen.KernelIdeal.Skeleton
import proofs.«160367_j17669495456065_1_alg».proof.Proof.LibPlainDot
import proofs.«160367_j17669495456065_1_alg».proof.Proof.LibRowNorm
import Idealize.ShloMosaic.Lib.ValueLayout

noncomputable section

namespace Cert.KernelIdeal.NodeBody

open Cert.KernelIdeal Cert.KernelIdeal.Gen Idealize.ShloMosaic Idealize.ShloMosaic.ValueIdx Idealize.ShloMosaic.Keepdims
  Cert.RowSpec

/-- The block's modulation matrix: `silu (c + pc)` times the 256×512 weights, plus the bias row. -/
def modMat (c pc : FVec Ideal S1024x256 .f32) (w : FVec Ideal S256x512 .bf16) (bias : FVec Ideal S1x512 .f32) :
    FVec Ideal S1024x512 .f32 :=
  addf (matmul dot_S1024x256_S256x512_S1024x512_1_0_0_1_n_n none
      (truncf .bf16 (mulf (addf c pc) (logistic (addf c pc))) bitsLt_bf16_f32)
      (shapeCast S256x512 w shapeCasts_S256x512_S256x512) (constant S1024x512 .f32 0x00000000#32))
    (broadcastTo S1024x512 (shapeCast S1x512 bias shapeCasts_S1x512_S1x512) broadcasts_S1x512_S1024x512)

theorem modMat_apply (c pc : FVec Ideal S1024x256 .f32) (w : FVec Ideal S256x512 .bf16) (bias : FVec Ideal S1x512 .f32)
    (p : Fin 1024) (q : Fin 512) :
    modMat c pc w bias (ix2 p q)
      = affine (fun k : Fin 256 => siluSum (c (ix2 p k)) (pc (ix2 p k))) (fun k : Fin 256 => w (ix2 k q)) (bias (ix2 (0 : Fin 1) q)) := by
  show FloatOps.matmul dot_S1024x256_S256x512_S1024x512_1_0_0_1_n_n none _ _ (constant S1024x512 .f32 0x00000000#32) (ix2 p q)
      + broadcastTo S1024x512 (shapeCast S1x512 bias shapeCasts_S1x512_S1x512) broadcasts_S1x512_S1024x512 (ix2 p q) = _
  rw [shapeCast_self, shapeCast_self, broadcastTo_1b_ab_apply]
  refine congrArg (· + bias (ix2 (0 : Fin 1) q)) ?_
  exact PlainDot.matmul_zero_apply dot_S1024x256_S256x512_S1024x512_1_0_0_1_n_n.wf none _ w p q

/-- The first store's value is the normalised block, modulated by the two halves of the modulation matrix. -/
theorem pay2_eq (c pc : FVec Ideal S1024x256 .f32) (w : FVec Ideal S256x512 .bf16) (bias : FVec Ideal S1x512 .f32)
    (x : FVec Ideal S1024x256 .f32) :
    k0_pay2 (F := Ideal) c pc w bias x
      = addf (mulf (RowNorm.normalised x (Scalar.ofBits .f32 0x43800000#32) (Scalar.ofBits .f32 0x3727C5AC#32) 0x00000000#32
            reduces_S1024x256_S1024 (.inl rfl) rfl shapeCasts_S1024_S1024x1 broadcasts_S1024x1_S1024x256)
          (addf (broadcast S1024x256 (Scalar.ofBits .f32 0x3F800000#32))
            (extractStridedSlice S1024x256 ![0, 256] (modMat c pc w bias) slices_S1024x512_o0_256_S1024x256)))
        (extractStridedSlice S1024x256 ![0, 0] (modMat c pc w bias) slices_S1024x512_o0_0_S1024x256) := rfl

/-- THE FIRST STORE at `(p, j)`: row `p` of `x` normalised at `j`, times one plus the scale, plus the shift. -/
theorem pay2_apply (c pc : FVec Ideal S1024x256 .f32) (w : FVec Ideal S256x512 .bf16) (bias : FVec Ideal S1x512 .f32)
    (x : FVec Ideal S1024x256 .f32) (p : Fin 1024) (j : Fin 256) :
    k0_pay2 (F := Ideal) c pc w bias x (ix2 p j)
      = modulated c256 cEps cOne (fun k : Fin 256 => x (ix2 p k)) j
          (fun k : Fin 256 => siluSum (c (ix2 p k)) (pc (ix2 p k)))
          (fun k : Fin 256 => w (ix2 k (shiftCol256 j))) (fun k : Fin 256 => w (ix2 k (scaleCol256 j)))
          (bias (ix2 (0 : Fin 1) (shiftCol256 j))) (bias (ix2 (0 : Fin 1) (scaleCol256 j))) := by
  rw [pay2_eq]
  show RowNorm.normalised x c256 cEps 0x00000000#32 reduces_S1024x256_S1024 (.inl rfl) rfl shapeCasts_S1024_S1024x1
        broadcasts_S1024x1_S1024x256 (ix2 p j)
      * (cOne + extractStridedSlice S1024x256 ![0, 256] (modMat c pc w bias) slices_S1024x512_o0_256_S1024x256 (ix2 p j))
      + extractStridedSlice S1024x256 ![0, 0] (modMat c pc w bias) slices_S1024x512_o0_0_S1024x256 (ix2 p j) = _
  exact congrArg₂ (· + ·)
    (congrArg₂ (· * ·) (RowNorm.normalised_apply x c256 cEps _ _ _ _ _ _ p j)
      (congrArg (cOne + ·) ((slice2_axis1_apply 256 _ _ p j (scaleCol256 j) rfl).trans (modMat_apply c pc w bias p (scaleCol256 j)))))
    ((slice2_axis1_apply 0 _ _ p j (shiftCol256 j) (Nat.zero_add _).symm).trans (modMat_apply c pc w bias p (shiftCol256 j)))

/-- The same, with the rows it reads named. -/
theorem pay2_apply' (c pc : FVec Ideal S1024x256 .f32) (w : FVec Ideal S256x512 .bf16) (bias : FVec Ideal S1x512 .f32)
    (x : FVec Ideal S1024x256 .f32) (p : Fin 1024) (j : Fin 256) (X H Wsh Wsc : Fin 256 → EReal) (bsh bsc : EReal)
    (hx : ∀ k, x (ix2 p k) = X k) (hh : ∀ k, siluSum (c (ix2 p k)) (pc (ix2 p k)) = H k)
    (hsh : ∀ k, w (ix2 k (shiftCol256 j)) = Wsh k) (hsc : ∀ k, w (ix2 k (scaleCol256 j)) = Wsc k)
    (hbsh : bias (ix2 (0 : Fin 1) (shiftCol256 j)) = bsh) (hbsc : bias (ix2 (0 : Fin 1) (scaleCol256 j)) = bsc) :
    k0_pay2 (F := Ideal) c pc w bias x (ix2 p j) = modulated c256 cEps cOne X j H Wsh Wsc bsh bsc := by
  rw [pay2_apply, funext hx, funext hh, funext hsh, funext hsc, hbsh, hbsc]

/-- THE SECOND STORE at `(p, q)`: the affine image of row `p` of `pc` under column `q` of the 256×128 weights. -/
theorem pay1_apply (pc : FVec Ideal S1024x256 .f32) (w : FVec Ideal S256x128 .bf16) (bias : FVec Ideal S1x128 .f32)
    (p : Fin 1024) (q : Fin 128) :
    k0_pay1 (F := Ideal) pc w bias (ix2 p q)
      = affine (fun k : Fin 256 => pc (ix2 p k)) (fun k : Fin 256 => w (ix2 k q)) (bias (ix2 (0 : Fin 1) q)) := by
  show FloatOps.matmul dot_S1024x256_S256x128_S1024x128_1_0_0_1_n_n none (truncf .bf16 pc bitsLt_bf16_f32)
        (shapeCast S256x128 w shapeCasts_S256x128_S256x128) (constant S1024x128 .f32 0x00000000#32) (ix2 p q)
      + broadcastTo S1024x128 (shapeCast S1x128 bias shapeCasts_S1x128_S1x128) broadcasts_S1x128_S1024x128 (ix2 p q) = _
  rw [shapeCast_self, shapeCast_self, broadcastTo_1b_ab_apply]
  refine congrArg (· + bias (ix2 (0 : Fin 1) q)) ?_
  exact PlainDot.matmul_zero_apply dot_S1024x256_S256x128_S1024x128_1_0_0_1_n_n.wf none _ w p q

/-- The same, with the rows it reads named. -/
theorem pay1_apply' (pc : FVec Ideal S1024x256 .f32) (w : FVec Ideal S256x128 .bf16) (bias : FVec Ideal S1x128 .f32)
    (p : Fin 1024) (q : Fin 128) (PC W : Fin 256 → EReal) (B : EReal)
    (h1 : ∀ k, pc (ix2 p k) = PC k) (h2 : ∀ k, w (ix2 k q) = W k) (h3 : bias (ix2 (0 : Fin 1) q) = B) :
    k0_pay1 (F := Ideal) pc w bias (ix2 p q) = affine PC W B := by
  rw [pay1_apply, funext h1, funext h2, h3]

end Cert.KernelIdeal.NodeBody

end
-- ==== Proof.ArraySpec.lean ====
/-
  The three arrays both programs compute, as whole-array functions of the argument arrays.

  `nodeOut` is `fv_out`: row `r` of `fv` normalised and modulated by the affine image of `silu (fv_c + fv_pos_c)` at row
  `r`. `proj` is the node projection `fvp`: the affine image of row `r` of `fv_pos_c`. `edgeOut` is `fe_out`: row `r` of
  `fe` normalised and modulated by the affine image of `silu (fe_c + fv2e)` at row `r`, `fv2e` any `[E, 128]` array (both
  programs gather it from `proj` by the same indices). The weight arrays are taken already transposed (`[K, N]`) and
  the biases as `[1, N]` rows, as the kernels hold them.
-/
import proofs.«160367_j17669495456065_1_alg».proof.Proof.RowSpec
import Idealize.ShloMosaic.Lib.ValueIdx

noncomputable section

namespace Cert.ArraySpec

open Idealize.ShloMosaic Idealize.ShloMosaic.ValueIdx Cert.RowSpec

abbrev SN256 : Shape := ⟨2, ![65536, 256]⟩
abbrev SN128 : Shape := ⟨2, ![65536, 128]⟩
abbrev SE128 : Shape := ⟨2, ![262144, 128]⟩

/-- `fv_out` at row `r`, column `j`. -/
def nodeOutAt (fv c pc : SN256.Idx → EReal) (wT : (⟨2, ![256, 512]⟩ : Shape).Idx → EReal)
    (b : (⟨2, ![1, 512]⟩ : Shape).Idx → EReal) (r : Fin 65536) (j : Fin 256) : EReal :=
  modulated c256 cEps cOne (fun k : Fin 256 => fv (ix2 r k)) j
    (fun k : Fin 256 => siluSum (c (ix2 r k)) (pc (ix2 r k)))
    (fun k : Fin 256 => wT (ix2 k (shiftCol256 j))) (fun k : Fin 256 => wT (ix2 k (scaleCol256 j)))
    (b (ix2 (0 : Fin 1) (shiftCol256 j))) (b (ix2 (0 : Fin 1) (scaleCol256 j)))

def nodeOut (fv c pc : SN256.Idx → EReal) (wT : (⟨2, ![256, 512]⟩ : Shape).Idx → EReal)
    (b : (⟨2, ![1, 512]⟩ : Shape).Idx → EReal) : SN256.Idx → EReal :=
  fun i => nodeOutAt fv c pc wT b (i 0) (i 1)

/-- The node projection at row `r`, column `q`. -/
def projAt (pc : SN256.Idx → EReal) (wT : (⟨2, ![256, 128]⟩ : Shape).Idx → EReal)
    (b : (⟨2, ![1, 128]⟩ : Shape).Idx → EReal) (r : Fin 65536) (q : Fin 128) : EReal :=
  affine (fun k : Fin 256 => pc (ix2 r k)) (fun k : Fin 256 => wT (ix2 k q)) (b (ix2 (0 : Fin 1) q))

def proj (pc : SN256.Idx → EReal) (wT : (⟨2, ![256, 128]⟩ : Shape).Idx → EReal)
    (b : (⟨2, ![1, 128]⟩ : Shape).Idx → EReal) : SN128.Idx → EReal :=
  fun i => projAt pc wT b (i 0) (i 1)

/-- `fe_out` at row `r`, column `j`. -/
def edgeOutAt (fe c g : SE128.Idx → EReal) (wT : (⟨2, ![128, 256]⟩ : Shape).Idx → EReal)
    (b : (⟨2, ![1, 256]⟩ : Shape).Idx → EReal) (r : Fin 262144) (j : Fin 128) : EReal :=
  modulated c128 cEps cOne (fun k : Fin 128 => fe (ix2 r k)) j
    (fun k : Fin 128 => siluSum (c (ix2 r k)) (g (ix2 r k)))
    (fun k : Fin 128 => wT (ix2 k (shiftCol128 j))) (fun k : Fin 128 => wT (ix2 k (scaleCol128 j)))
    (b (ix2 (0 : Fin 1) (shiftCol128 j))) (b (ix2 (0 : Fin 1) (scaleCol128 j)))

def edgeOut (fe c g : SE128.Idx → EReal) (wT : (⟨2, ![128, 256]⟩ : Shape).Idx → EReal)
    (b : (⟨2, ![1, 256]⟩ : Shape).Idx → EReal) : SE128.Idx → EReal :=
  fun i => edgeOutAt fe c g wT b (i 0) (i 1)

end Cert.ArraySpec

end
-- ==== Proof.NodeArrays.lean ====
/-
  The node region's two output arrays, whole.

  The node kernel runs at 64 grid points; point `t` holds rows `1024·t … 1024·t + 1023` of the three row-blocked
  inputs, the whole weight and bias arrays, and writes back the same rows of its two outputs. Since entry `(p, j)`
  of what a point stores depends on row `p` of its blocks only, what point `t` writes back is block `t` of ONE
  whole-array function of the arrays as the region finds them (`ArraySpec.nodeOut`, `ArraySpec.proj`); the 64 blocks
  cover all 65536 rows, so after the region each output array IS that function.
-/
import proofs.«160367_j17669495456065_1_alg».proof.Proof.Gen.KernelIdeal.Frame
import proofs.«160367_j17669495456065_1_alg».proof.Proof.NodeBody
import proofs.«160367_j17669495456065_1_alg».proof.Proof.ArraySpec
import Idealize.ShloMosaic.Lib.Pipeline.Value

set_option maxRecDepth 16384

noncomputable section

namespace Cert.KernelIdeal.NodeArrays

open Cert.KernelIdeal Cert.KernelIdeal.Gen Cert.ArraySpec Cert.RowSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 64 grid points: the row-blocked windows move with the point on the
    row axis and stay at 0 on the column axis; the weight and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of point `t`'s blocks is row `1024·t + p` of the arrays. -/
def rowOf (t : Fin cfg0.N) (p : Fin 1024) : Fin 65536 :=
  ⟨t.val * 1024 + p.val, by have ht : t.val < 64 := lt_of_lt_of_eq t.isLt N_0; have := p.isLt; omega⟩

/-! ## Where a block's entry sits in its array -/

theorem emb0 (t : Fin cfg0.N) (p : Fin 1024) (k : Fin 256) :
    ((cfg0.win 0).blk t).view.emb (ix2 p k) = ix2 (rowOf t p) k := by
  obtain ⟨e0, e1, -⟩ := idx_facts t
  funext a; apply Fin.ext
  match a with
  | ⟨0, _⟩ => show win0_0.index t (0 : Fin 2) * 1024 + 1 * p.val = t.val * 1024 + p.val; omega
  | ⟨1, _⟩ => show win0_0.index t (1 : Fin 2) * 256 + 1 * k.val = k.val; omega

theorem emb1 (t : Fin cfg0.N) (p : Fin 1024) (k : Fin 256) :
    ((cfg0.win 1).blk t).view.emb (ix2 p k) = ix2 (rowOf t p) k := by
  obtain ⟨-, -, e0, e1, -⟩ := idx_facts t
  funext a; apply Fin.ext
  match a with
  | ⟨0, _⟩ => show win0_1.index t (0 : Fin 2) * 1024 + 1 * p.val = t.val * 1024 + p.val; omega
  | ⟨1, _⟩ => show win0_1.index t (1 : Fin 2) * 256 + 1 * k.val = k.val; omega

theorem emb2 (t : Fin cfg0.N) (p : Fin 1024) (k : Fin 256) :
    ((cfg0.win 2).blk t).view.emb (ix2 p k) = ix2 (rowOf t p) k := by
  obtain ⟨-, -, -, -, e0, e1, -⟩ := idx_facts t
  funext a; apply Fin.ext
  match a with
  | ⟨0, _⟩ => show win0_2.index t (0 : Fin 2) * 1024 + 1 * p.val = t.val * 1024 + p.val; omega
  | ⟨1, _⟩ => show win0_2.index t (1 : Fin 2) * 256 + 1 * k.val = k.val; omega

theorem emb3 (t : Fin cfg0.N) (k : Fin 256) (q : Fin 512) :
    ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 256 + 1 * k.val = k.val; omega
  | ⟨1, _⟩ => show win0_3.index t (1 : Fin 2) * 512 + 1 * q.val = q.val; omega

theorem emb4 (t : Fin cfg0.N) (u : Fin 1) (q : Fin 512) :
    ((cfg0.win 4).blk t).view.emb (ix2 u q) = ix2 u q := by
  obtain ⟨-, -, -, -, -, -, -, -, e0, e1, -⟩ := idx_facts t
  funext a; apply Fin.ext
  match a with
  | ⟨0, _⟩ => show win0_4.index t (0 : Fin 2) * 1 + 1 * u.val = u.val; omega
  | ⟨1, _⟩ => show win0_4.index t (1 : Fin 2) * 512 + 1 * q.val = q.val; omega

theorem emb5 (t : Fin cfg0.N) (k : Fin 256) (q : Fin 128) :
    ((cfg0.win 5).blk t).view.emb (ix2 k q) = ix2 k q := by
  obtain ⟨-, -, -, -, -, -, -, -, -, -, e0, e1, -⟩ := idx_facts t
  funext a; apply Fin.ext
  match a with
  | ⟨0, _⟩ => show win0_5.index t (0 : Fin 2) * 256 + 1 * k.val = k.val; omega
  | ⟨1, _⟩ => show win0_5.index t (1 : Fin 2) * 128 + 1 * q.val = q.val; omega

theorem emb6 (t : Fin cfg0.N) (u : Fin 1) (q : Fin 128) :
    ((cfg0.win 6).blk t).view.emb (ix2 u q) = ix2 u q := by
  obtain ⟨-, -, -, -, -, -, -, -, -, -, -, -, e0, e1, -⟩ := idx_facts t
  funext a; apply Fin.ext
  match a with
  | ⟨0, _⟩ => show win0_6.index t (0 : Fin 2) * 1 + 1 * u.val = u.val; omega
  | ⟨1, _⟩ => show win0_6.index t (1 : Fin 2) * 128 + 1 * q.val = q.val; omega

theorem emb7 (t : Fin cfg0.N) (p : Fin 1024) (j : Fin 256) :
    ((cfg0.win 7).blk t).view.emb (ix2 p j) = ix2 (rowOf t p) j := by
  obtain ⟨-, -, -, -, -, -, -, -, -, -, -, -, -, -, e0, e1, -⟩ := idx_facts t
  funext a; apply Fin.ext
  match a with
  | ⟨0, _⟩ => show win0_7.index t (0 : Fin 2) * 1024 + 1 * p.val = t.val * 1024 + p.val; omega
  | ⟨1, _⟩ => show win0_7.index t (1 : Fin 2) * 256 + 1 * j.val = j.val; omega

theorem emb8 (t : Fin cfg0.N) (p : Fin 1024) (q : Fin 128) :
    ((cfg0.win 8).blk t).view.emb (ix2 p q) = ix2 (rowOf t p) q := by
  obtain ⟨-, -, -, -, -, -, -, -, -, -, -, -, -, -, -, -, e0, e1⟩ := idx_facts t
  funext a; apply Fin.ext
  match a with
  | ⟨0, _⟩ => show win0_8.index t (0 : Fin 2) * 1024 + 1 * p.val = t.val * 1024 + p.val; omega
  | ⟨1, _⟩ => show win0_8.index t (1 : Fin 2) * 128 + 1 * q.val = q.val; omega

/-! ## What a point writes back -/

/-- Point `t` writes back block `t` of `nodeOut` of the arrays as the region finds them. -/
theorem flushed7_eq (c : Dev nD) (t : Fin cfg0.N) :
    (dat0 V c).flushed 7 t = ((cfg0.win 7).blk t).view.read (Elt Ideal)
      (nodeOut (V c main_arg0) (V c main_arg4) (V c main_arg6) (V c main_v1) (V c main_v6)) := by
  show (cfg0.win 7).cut (grid0.coords t) ((dat0 V c).after 7 t) = _
  rw [after0_7]
  unfold out0_7
  rw [View.canon_unit_zero hz]
  simp only [View.ld_unit_zero (S := S1024x256) hz, View.ld_unit_zero (S := S256x512) hz, View.ld_unit_zero (S := S1x512) hz]
  funext (y : S1024x256.Idx)
  obtain ⟨p, j, rfl⟩ : ∃ (p : Fin 1024) (j : Fin 256), y = ix2 p j := ⟨y 0, y 1, eq_ix2 y⟩
  refine (NodeBody.pay2_apply' (iblk0 V c 1 t) (iblk0 V c 2 t) (iblk0 V c 3 t) (iblk0 V c 4 t) (iblk0 V c 0 t) p j
    (fun k => (V c main_arg0 : S65536x256.Idx → EReal) (ix2 (rowOf t p) k))
    (fun k => siluSum ((V c main_arg4 : S65536x256.Idx → EReal) (ix2 (rowOf t p) k))
      ((V c main_arg6 : S65536x256.Idx → EReal) (ix2 (rowOf t p) k)))
    (fun k => (V c main_v1 : S256x512.Idx → EReal) (ix2 k (shiftCol256 j)))
    (fun k => (V c main_v1 : S256x512.Idx → EReal) (ix2 k (scaleCol256 j)))
    ((V c main_v6 : S1x512.Idx → EReal) (ix2 (0 : Fin 1) (shiftCol256 j)))
    ((V c main_v6 : S1x512.Idx → EReal) (ix2 (0 : Fin 1) (scaleCol256 j)))
    (fun k => congrArg (V c main_arg0 : S65536x256.Idx → EReal) (emb0 t p k))
    (fun k => congrArg₂ siluSum
      (congrArg (V c main_arg4 : S65536x256.Idx → EReal) (emb1 t p k))
      (congrArg (V c main_arg6 : S65536x256.Idx → EReal) (emb2 t p k)))
    (fun k => congrArg (V c main_v1 : S256x512.Idx → EReal) (emb3 t k (shiftCol256 j)))
    (fun k => congrArg (V c main_v1 : S256x512.Idx → EReal) (emb3 t k (scaleCol256 j)))
    (congrArg (V c main_v6 : S1x512.Idx → EReal) (emb4 t 0 (shiftCol256 j)))
    (congrArg (V c main_v6 : S1x512.Idx → EReal) (emb4 t 0 (scaleCol256 j)))).trans ?_
  exact (congrArg (nodeOut (V c main_arg0) (V c main_arg4) (V c main_arg6) (V c main_v1) (V c main_v6)) (emb7 t p j)).symm

/-- Point `t` writes back block `t` of `proj` of the arrays as the region finds them. -/
theorem flushed8_eq (c : Dev nD) (t : Fin cfg0.N) :
    (dat0 V c).flushed 8 t = ((cfg0.win 8).blk t).view.read (Elt Ideal)
      (proj (V c main_arg6) (V c main_v3) (V c main_v7)) := by
  show (cfg0.win 8).cut (grid0.coords t) ((dat0 V c).after 8 t) = _
  rw [after0_8]
  unfold out0_8
  rw [View.canon_unit_zero hz]
  simp only [View.ld_unit_zero (S := S1024x256) hz, View.ld_unit_zero (S := S256x128) hz, View.ld_unit_zero (S := S1x128) hz]
  funext (y : S1024x128.Idx)
  obtain ⟨p, q, rfl⟩ : ∃ (p : Fin 1024) (q : Fin 128), y = ix2 p q := ⟨y 0, y 1, eq_ix2 y⟩
  refine (NodeBody.pay1_apply' (iblk0 V c 2 t) (iblk0 V c 5 t) (iblk0 V c 6 t) p q
    (fun k => (V c main_arg6 : S65536x256.Idx → EReal) (ix2 (rowOf t p) k))
    (fun k => (V c main_v3 : S256x128.Idx → EReal) (ix2 k q))
    ((V c main_v7 : S1x128.Idx → EReal) (ix2 (0 : Fin 1) q))
    (fun k => congrArg (V c main_arg6 : S65536x256.Idx → EReal) (emb2 t p k))
    (fun k => congrArg (V c main_v3 : S256x128.Idx → EReal) (emb5 t k q))
    (congrArg (V c main_v7 : S1x128.Idx → EReal) (emb6 t 0 q))).trans ?_
  exact (congrArg (proj (V c main_arg6) (V c main_v3) (V c main_v7)) (emb8 t p q)).symm

/-! ## The blocks cover the arrays -/

theorem mem_blk7 (t : Fin cfg0.N) (i : S65536x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v9_0).slice (win0_7.rect t)).set ↔ _
  rw [View.set_slice_whole, Rect.mem_set_unit]
  exact Iff.rfl

theorem mem_blk8 (t : Fin cfg0.N) (i : S65536x128.Idx) :
    i ∈ ((cfg0.win 8).blk t).view.set ↔ ∀ a : Fin 2, win0_8.index t a * S1024x128.size a ≤ (i a).val
      ∧ (i a).val < win0_8.index t a * S1024x128.size a + S1024x128.size a := by
  show i ∈ ((View.whole main_v9_1).slice (win0_8.rect t)).set ↔ _
  rw [View.set_slice_whole, Rect.mem_set_unit]
  exact Iff.rfl

/-- Row `r` is in the block of point `r / 1024`. -/
theorem cover7 (i : S65536x256.Idx) :
    ∃ t : Fin cfg0.N, (cfg0.win 7).flush t = true ∧ i ∈ ((cfg0.win 7).blk t).view.set := by
  have hi0 : (i 0).val < 65536 := (i 0).isLt
  have hi1 : (i 1).val < 256 := (i 1).isLt
  have hN : cfg0.N = 64 := N_0
  refine ⟨⟨(i 0).val / 1024, by rw [hN]; omega⟩, flush0_7 _, ?_⟩
  obtain ⟨-, -, -, -, -, -, -, -, -, -, -, -, -, -, e0, e1, -⟩ := idx_facts ⟨(i 0).val / 1024, by rw [hN]; omega⟩
  rw [mem_blk7]
  intro a
  match a with
  | ⟨0, _⟩ =>
    show win0_7.index _ (0 : Fin 2) * 1024 ≤ (i 0).val ∧ (i 0).val < win0_7.index _ (0 : Fin 2) * 1024 + 1024
    rw [e0]; show (i 0).val / 1024 * 1024 ≤ (i 0).val ∧ (i 0).val < (i 0).val / 1024 * 1024 + 1024; omega
  | ⟨1, _⟩ =>
    show win0_7.index _ (1 : Fin 2) * 256 ≤ (i 1).val ∧ (i 1).val < win0_7.index _ (1 : Fin 2) * 256 + 256
    rw [e1]; omega

theorem cover8 (i : S65536x128.Idx) :
    ∃ t : Fin cfg0.N, (cfg0.win 8).flush t = true ∧ i ∈ ((cfg0.win 8).blk t).view.set := by
  have hi0 : (i 0).val < 65536 := (i 0).isLt
  have hi1 : (i 1).val < 128 := (i 1).isLt
  have hN : cfg0.N = 64 := N_0
  refine ⟨⟨(i 0).val / 1024, by rw [hN]; omega⟩, flush0_8 _, ?_⟩
  obtain ⟨-, -, -, -, -, -, -, -, -, -, -, -, -, -, -, -, e0, e1⟩ := idx_facts ⟨(i 0).val / 1024, by rw [hN]; omega⟩
  rw [mem_blk8]
  intro a
  match a with
  | ⟨0, _⟩ =>
    show win0_8.index _ (0 : Fin 2) * 1024 ≤ (i 0).val ∧ (i 0).val < win0_8.index _ (0 : Fin 2) * 1024 + 1024
    rw [e0]; show (i 0).val / 1024 * 1024 ≤ (i 0).val ∧ (i 0).val < (i 0).val / 1024 * 1024 + 1024; omega
  | ⟨1, _⟩ =>
    show win0_8.index _ (1 : Fin 2) * 128 ≤ (i 1).val ∧ (i 1).val < win0_8.index _ (1 : Fin 2) * 128 + 128
    rw [e1]; omega

/-! ## The arrays after the region -/

theorem final7 (c : Dev nD) : (dat0 V c).arrAt 7 cfg0.N
    = nodeOut (V c main_arg0) (V c main_arg4) (V c main_arg6) (V c main_v1) (V c main_v6) :=
  (dat0 V c).arrAt_eq_of_cover 7 _ (fun t _ => flushed7_eq V c t) cover7

theorem final8 (c : Dev nD) : (dat0 V c).arrAt 8 cfg0.N = proj (V c main_arg6) (V c main_v3) (V c main_v7) :=
  (dat0 V c).arrAt_eq_of_cover 8 _ (fun t _ => flushed8_eq V c t) cover8

end Cert.KernelIdeal.NodeArrays

end
-- ==== Proof.EdgeBody.lean ====
/-
  The edge kernel's store, read at an entry.

  At a grid point the edge kernel holds a block of 2048 rows of `fe`, `fe_c` and the gathered node projections
  `fv2e`, the whole transposed 128×256 weight matrix and its bias row. It stores the adaptive layer normalisation of
  the block's rows of `fe`, modulated by the affine image of `silu (fe_c + fv2e)` (shifts in columns 0..127, scales in
  columns 128..255). Entry `(p, j)` depends on row `p` of the blocks only.
-/
import proofs.«160367_j17669495456065_1_alg».proof.Proof.Gen.KernelIdeal.Skeleton
import proofs.«160367_j17669495456065_1_alg».proof.Proof.LibPlainDot
import proofs.«160367_j17669495456065_1_alg».proof.Proof.LibRowNorm
import Idealize.ShloMosaic.Lib.ValueLayout

noncomputable section

namespace Cert.KernelIdeal.EdgeBody

open Cert.KernelIdeal Cert.KernelIdeal.Gen Idealize.ShloMosaic Idealize.ShloMosaic.ValueIdx Idealize.ShloMosaic.Keepdims
  Cert.RowSpec

/-- The block's modulation matrix: `silu (c + g)` times the 128×256 weights, plus the bias row. -/
def modMat (c g : FVec Ideal S2048x128 .f32) (w : FVec Ideal S128x256 .bf16) (bias : FVec Ideal S1x256 .f32) :
    FVec Ideal S2048x256 .f32 :=
  addf (matmul dot_S2048x128_S128x256_S2048x256_1_0_0_1_n_n none
      (truncf .bf16 (mulf (addf c (shapeCast S2048x128 g shapeCasts_S2048x128_S2048x128))
        (logistic (addf c (shapeCast S2048x128 g shapeCasts_S2048x128_S2048x128)))) bitsLt_bf16_f32)
      (shapeCast S128x256 w shapeCasts_S128x256_S128x256) (constant S2048x256 .f32 0x00000000#32))
    (broadcastTo S2048x256 (shapeCast S1x256 bias shapeCasts_S1x256_S1x256) broadcasts_S1x256_S2048x256)

theorem modMat_apply (c g : FVec Ideal S2048x128 .f32) (w : FVec Ideal S128x256 .bf16) (bias : FVec Ideal S1x256 .f32)
    (p : Fin 2048) (q : Fin 256) :
    modMat c g w bias (ix2 p q)
      = affine (fun k : Fin 128 => siluSum (c (ix2 p k)) (g (ix2 p k))) (fun k : Fin 128 => w (ix2 k q)) (bias (ix2 (0 : Fin 1) q)) := by
  unfold modMat
  rw [shapeCast_self g]
  show FloatOps.matmul dot_S2048x128_S128x256_S2048x256_1_0_0_1_n_n none _ _ (constant S2048x256 .f32 0x00000000#32) (ix2 p q)
      + broadcastTo S2048x256 (shapeCast S1x256 bias shapeCasts_S1x256_S1x256) broadcasts_S1x256_S2048x256 (ix2 p q) = _
  rw [shapeCast_self, shapeCast_self, broadcastTo_1b_ab_apply]
  refine congrArg (· + bias (ix2 (0 : Fin 1) q)) ?_
  exact PlainDot.matmul_zero_apply dot_S2048x128_S128x256_S2048x256_1_0_0_1_n_n.wf none _ w p q

/-- The store's value is the normalised block, modulated by the two halves of the modulation matrix. -/
theorem pay1_eq (c g : FVec Ideal S2048x128 .f32) (w : FVec Ideal S128x256 .bf16) (bias : FVec Ideal S1x256 .f32)
    (x : FVec Ideal S2048x128 .f32) :
    k1_pay1 (F := Ideal) c g w bias x
      = addf (mulf (RowNorm.normalised x (Scalar.ofBits .f32 0x43000000#32) (Scalar.ofBits .f32 0x3727C5AC#32) 0x00000000#32
            reduces_S2048x128_S2048 (.inl rfl) rfl shapeCasts_S2048_S2048x1 broadcasts_S2048x1_S2048x128)
          (addf (broadcast S2048x128 (Scalar.ofBits .f32 0x3F800000#32))
            (extractStridedSlice S2048x128 ![0, 128] (modMat c g w bias) slices_S2048x256_o0_128_S2048x128)))
        (extractStridedSlice S2048x128 ![0, 0] (modMat c g w bias) slices_S2048x256_o0_0_S2048x128) := rfl

/-- THE STORE at `(p, j)`: row `p` of `x` normalised at `j`, times one plus the scale, plus the shift. -/
theorem pay1_apply (c g : FVec Ideal S2048x128 .f32) (w : FVec Ideal S128x256 .bf16) (bias : FVec Ideal S1x256 .f32)
    (x : FVec Ideal S2048x128 .f32) (p : Fin 2048) (j : Fin 128) :
    k1_pay1 (F := Ideal) c g w bias x (ix2 p j)
      = modulated c128 cEps cOne (fun k : Fin 128 => x (ix2 p k)) j
          (fun k : Fin 128 => siluSum (c (ix2 p k)) (g (ix2 p k)))
          (fun k : Fin 128 => w (ix2 k (shiftCol128 j))) (fun k : Fin 128 => w (ix2 k (scaleCol128 j)))
          (bias (ix2 (0 : Fin 1) (shiftCol128 j))) (bias (ix2 (0 : Fin 1) (scaleCol128 j))) := by
  rw [pay1_eq]
  show RowNorm.normalised x c128 cEps 0x00000000#32 reduces_S2048x128_S2048 (.inl rfl) rfl shapeCasts_S2048_S2048x1
        broadcasts_S2048x1_S2048x128 (ix2 p j)
      * (cOne + extractStridedSlice S2048x128 ![0, 128] (modMat c g w bias) slices_S2048x256_o0_128_S2048x128 (ix2 p j))
      + extractStridedSlice S2048x128 ![0, 0] (modMat c g w bias) slices_S2048x256_o0_0_S2048x128 (ix2 p j) = _
  exact congrArg₂ (· + ·)
    (congrArg₂ (· * ·) (RowNorm.normalised_apply x c128 cEps _ _ _ _ _ _ p j)
      (congrArg (cOne + ·) ((slice2_axis1_apply 128 _ _ p j (scaleCol128 j) rfl).trans (modMat_apply c g w bias p (scaleCol128 j)))))
    ((slice2_axis1_apply 0 _ _ p j (shiftCol128 j) (Nat.zero_add _).symm).trans (modMat_apply c g w bias p (shiftCol128 j)))

/-- The same, with the rows it reads named. -/
theorem pay1_apply' (c g : FVec Ideal S2048x128 .f32) (w : FVec Ideal S128x256 .bf16) (bias : FVec Ideal S1x256 .f32)
    (x : FVec Ideal S2048x128 .f32) (p : Fin 2048) (j : Fin 128) (X H Wsh Wsc : Fin 128 → EReal) (bsh bsc : EReal)
    (hx : ∀ k, x (ix2 p k) = X k) (hh : ∀ k, siluSum (c (ix2 p k)) (g (ix2 p k)) = H k)
    (hsh : ∀ k, w (ix2 k (shiftCol128 j)) = Wsh k) (hsc : ∀ k, w (ix2 k (scaleCol128 j)) = Wsc k)
    (hbsh : bias (ix2 (0 : Fin 1) (shiftCol128 j)) = bsh) (hbsc : bias (ix2 (0 : Fin 1) (scaleCol128 j)) = bsc) :
    k1_pay1 (F := Ideal) c g w bias x (ix2 p j) = modulated c128 cEps cOne X j H Wsh Wsc bsh bsc := by
  rw [pay1_apply, funext hx, funext hh, funext hsh, funext hsc, hbsh, hbsc]

end Cert.KernelIdeal.EdgeBody

end
-- ==== Proof.EdgeArrays.lean ====
/-
  The edge region's output array, whole.

  The edge kernel runs at 128 grid points; point `t` holds rows `2048·t … 2048·t + 2047` of `fe`, `fe_c` and the
  gathered projections, the whole weight and bias arrays, and writes back the same rows of its output. Entry `(p, j)`
  of what a point stores depends on row `p` of its blocks only, so point `t` writes back block `t` of ONE whole-array
  function of the arrays as the region finds them (`ArraySpec.edgeOut`); the 128 blocks cover all 262144 rows.
-/
import proofs.«160367_j17669495456065_1_alg».proof.Proof.Gen.KernelIdeal.Frame
import proofs.«160367_j17669495456065_1_alg».proof.Proof.EdgeBody
import proofs.«160367_j17669495456065_1_alg».proof.Proof.ArraySpec
import Idealize.ShloMosaic.Lib.Pipeline.Value

set_option maxRecDepth 16384

noncomputable section

namespace Cert.KernelIdeal.EdgeArrays

open Cert.KernelIdeal Cert.KernelIdeal.Gen Cert.ArraySpec Cert.RowSpec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 128 grid points: the row-blocked windows move with the point on the
    row axis and stay at 0 on the column axis; the weight and bias windows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s blocks is row `2048·t + p` of the arrays. -/
def rowOf (t : Fin cfg1.N) (p : Fin 2048) : Fin 262144 :=
  ⟨t.val * 2048 + p.val, by have ht : t.val < 128 := lt_of_lt_of_eq t.isLt N_1; have := p.isLt; omega⟩

/-! ## Where a block's entry sits in its array -/

theorem emb0 (t : Fin cfg1.N) (p : Fin 2048) (k : Fin 128) :
    ((cfg1.win 0).blk t).view.emb (ix2 p k) = ix2 (rowOf t p) k := by
  obtain ⟨e0, e1, -⟩ := idx_facts t
  funext a; apply Fin.ext
  match a with
  | ⟨0, _⟩ => show win1_0.index t (0 : Fin 2) * 2048 + 1 * p.val = t.val * 2048 + p.val; omega
  | ⟨1, _⟩ => show win1_0.index t (1 : Fin 2) * 128 + 1 * k.val = k.val; omega

theorem emb1 (t : Fin cfg1.N) (p : Fin 2048) (k : Fin 128) :
    ((cfg1.win 1).blk t).view.emb (ix2 p k) = ix2 (rowOf t p) k := by
  obtain ⟨-, -, e0, e1, -⟩ := idx_facts t
  funext a; apply Fin.ext
  match a with
  | ⟨0, _⟩ => show win1_1.index t (0 : Fin 2) * 2048 + 1 * p.val = t.val * 2048 + p.val; omega
  | ⟨1, _⟩ => show win1_1.index t (1 : Fin 2) * 128 + 1 * k.val = k.val; omega

theorem emb2 (t : Fin cfg1.N) (p : Fin 2048) (k : Fin 128) :
    ((cfg1.win 2).blk t).view.emb (ix2 p k) = ix2 (rowOf t p) k := by
  obtain ⟨-, -, -, -, e0, e1, -⟩ := idx_facts t
  funext a; apply Fin.ext
  match a with
  | ⟨0, _⟩ => show win1_2.index t (0 : Fin 2) * 2048 + 1 * p.val = t.val * 2048 + p.val; omega
  | ⟨1, _⟩ => show win1_2.index t (1 : Fin 2) * 128 + 1 * k.val = k.val; omega

theorem emb3 (t : Fin cfg1.N) (k : Fin 128) (q : Fin 256) :
    ((cfg1.win 3).blk t).view.emb (ix2 k q) = ix2 k q := by
  obtain ⟨-, -, -, -, -, -, e0, e1, -⟩ := idx_facts t
  funext a; apply Fin.ext
  match a with
  | ⟨0, _⟩ => show win1_3.index t (0 : Fin 2) * 128 + 1 * k.val = k.val; omega
  | ⟨1, _⟩ => show win1_3.index t (1 : Fin 2) * 256 + 1 * q.val = q.val; omega

theorem emb4 (t : Fin cfg1.N) (u : Fin 1) (q : Fin 256) :
    ((cfg1.win 4).blk t).view.emb (ix2 u q) = ix2 u q := by
  obtain ⟨-, -, -, -, -, -, -, -, e0, e1, -⟩ := idx_facts t
  funext a; apply Fin.ext
  match a with
  | ⟨0, _⟩ => show win1_4.index t (0 : Fin 2) * 1 + 1 * u.val = u.val; omega
  | ⟨1, _⟩ => show win1_4.index t (1 : Fin 2) * 256 + 1 * q.val = q.val; omega

theorem emb5 (t : Fin cfg1.N) (p : Fin 2048) (j : Fin 128) :
    ((cfg1.win 5).blk t).view.emb (ix2 p j) = ix2 (rowOf t p) j := by
  obtain ⟨-, -, -, -, -, -, -, -, -, -, e0, e1⟩ := idx_facts t
  funext a; apply Fin.ext
  match a with
  | ⟨0, _⟩ => show win1_5.index t (0 : Fin 2) * 2048 + 1 * p.val = t.val * 2048 + p.val; omega
  | ⟨1, _⟩ => show win1_5.index t (1 : Fin 2) * 128 + 1 * j.val = j.val; omega

/-! ## What a point writes back -/

/-- Point `t` writes back block `t` of `edgeOut` of the arrays as the region finds them. -/
theorem flushed5_eq (c : Dev nD) (t : Fin cfg1.N) :
    (dat1 V c).flushed 5 t = ((cfg1.win 5).blk t).view.read (Elt Ideal)
      (edgeOut (V c main_arg1) (V c main_arg5) (V c main_v24) (V c main_v5) (V c main_v8)) := by
  show (cfg1.win 5).cut (grid1.coords t) ((dat1 V c).after 5 t) = _
  rw [after1_5]
  unfold out1_5
  rw [View.canon_unit_zero hz]
  simp only [View.ld_unit_zero (S := S2048x128) hz, View.ld_unit_zero (S := S128x256) hz, View.ld_unit_zero (S := S1x256) hz]
  funext (y : S2048x128.Idx)
  obtain ⟨p, j, rfl⟩ : ∃ (p : Fin 2048) (j : Fin 128), y = ix2 p j := ⟨y 0, y 1, eq_ix2 y⟩
  refine (EdgeBody.pay1_apply' (iblk1 V c 1 t) (iblk1 V c 2 t) (iblk1 V c 3 t) (iblk1 V c 4 t) (iblk1 V c 0 t) p j
    (fun k => (V c main_arg1 : S262144x128.Idx → EReal) (ix2 (rowOf t p) k))
    (fun k => siluSum ((V c main_arg5 : S262144x128.Idx → EReal) (ix2 (rowOf t p) k))
      ((V c main_v24 : S262144x128.Idx → EReal) (ix2 (rowOf t p) k)))
    (fun k => (V c main_v5 : S128x256.Idx → EReal) (ix2 k (shiftCol128 j)))
    (fun k => (V c main_v5 : S128x256.Idx → EReal) (ix2 k (scaleCol128 j)))
    ((V c main_v8 : S1x256.Idx → EReal) (ix2 (0 : Fin 1) (shiftCol128 j)))
    ((V c main_v8 : S1x256.Idx → EReal) (ix2 (0 : Fin 1) (scaleCol128 j)))
    (fun k => congrArg (V c main_arg1 : S262144x128.Idx → EReal) (emb0 t p k))
    (fun k => congrArg₂ siluSum
      (congrArg (V c main_arg5 : S262144x128.Idx → EReal) (emb1 t p k))
      (congrArg (V c main_v24 : S262144x128.Idx → EReal) (emb2 t p k)))
    (fun k => congrArg (V c main_v5 : S128x256.Idx → EReal) (emb3 t k (shiftCol128 j)))
    (fun k => congrArg (V c main_v5 : S128x256.Idx → EReal) (emb3 t k (scaleCol128 j)))
    (congrArg (V c main_v8 : S1x256.Idx → EReal) (emb4 t 0 (shiftCol128 j)))
    (congrArg (V c main_v8 : S1x256.Idx → EReal) (emb4 t 0 (scaleCol128 j)))).trans ?_
  exact (congrArg (edgeOut (V c main_arg1) (V c main_arg5) (V c main_v24) (V c main_v5) (V c main_v8)) (emb5 t p j)).symm

/-! ## The blocks cover the array -/

theorem mem_blk5 (t : Fin cfg1.N) (i : S262144x128.Idx) :
    i ∈ ((cfg1.win 5).blk t).view.set ↔ ∀ a : Fin 2, win1_5.index t a * S2048x128.size a ≤ (i a).val
      ∧ (i a).val < win1_5.index t a * S2048x128.size a + S2048x128.size a := by
  show i ∈ ((View.whole main_v25).slice (win1_5.rect t)).set ↔ _
  rw [View.set_slice_whole, Rect.mem_set_unit]
  exact Iff.rfl

/-- Row `r` is in the block of point `r / 2048`. -/
theorem cover5 (i : S262144x128.Idx) :
    ∃ t : Fin cfg1.N, (cfg1.win 5).flush t = true ∧ i ∈ ((cfg1.win 5).blk t).view.set := by
  have hi0 : (i 0).val < 262144 := (i 0).isLt
  have hi1 : (i 1).val < 128 := (i 1).isLt
  have hN : cfg1.N = 128 := N_1
  refine ⟨⟨(i 0).val / 2048, by rw [hN]; omega⟩, flush1_5 _, ?_⟩
  obtain ⟨-, -, -, -, -, -, -, -, -, -, e0, e1⟩ := idx_facts ⟨(i 0).val / 2048, by rw [hN]; omega⟩
  rw [mem_blk5]
  intro a
  match a with
  | ⟨0, _⟩ =>
    show win1_5.index _ (0 : Fin 2) * 2048 ≤ (i 0).val ∧ (i 0).val < win1_5.index _ (0 : Fin 2) * 2048 + 2048
    rw [e0]; show (i 0).val / 2048 * 2048 ≤ (i 0).val ∧ (i 0).val < (i 0).val / 2048 * 2048 + 2048; omega
  | ⟨1, _⟩ =>
    show win1_5.index _ (1 : Fin 2) * 128 ≤ (i 1).val ∧ (i 1).val < win1_5.index _ (1 : Fin 2) * 128 + 128
    rw [e1]; omega

/-! ## The array after the region -/

theorem final5 (c : Dev nD) : (dat1 V c).arrAt 5 cfg1.N
    = edgeOut (V c main_arg1) (V c main_arg5) (V c main_v24) (V c main_v5) (V c main_v8) :=
  (dat1 V c).arrAt_eq_of_cover 5 _ (fun t _ => flushed5_eq V c t) cover5

end Cert.KernelIdeal.EdgeArrays

end
-- ==== Proof.KernelValues.lean ====
/-
  What the kernel program's buffers hold, boundary by boundary.

  The run's final contents `W7` are a fold: the launch memory, the first stretch of host operations (the three
  weight matrices transposed, the three bias vectors as rows), the node region's two arrays, the second stretch (the
  projection gathered at the two ends of every edge and added), the edge region's array, and the three last
  stretches (the position normalisation and the graph normalisation, which read argument arrays only). This module
  reads the fold at the buffers the results depend on: no argument array is ever written, the weight and bias
  buffers are what the first stretch computed, the node region's arrays are `ArraySpec.nodeOut` and `ArraySpec.proj`
  of them, the edge region's array is `ArraySpec.edgeOut`, and the first two results are those arrays untouched by
  everything after.
-/
import proofs.«160367_j17669495456065_1_alg».proof.Proof.Gen.KernelIdeal.Frame
import proofs.«160367_j17669495456065_1_alg».proof.Proof.NodeArrays
import proofs.«160367_j17669495456065_1_alg».proof.Proof.EdgeArrays
import Idealize.ShloMosaic.Lib.StableHlo.Run

set_option maxRecDepth 16384

noncomputable section

namespace Cert.KernelIdeal.Values

open Cert.KernelIdeal Cert.KernelIdeal.Gen Cert.ArraySpec
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## After the first stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg13 (c : Dev nD) : W1 m ρ c (Proc.devRef .tc main_arg13) = m ((c : Thread nD τ).loc main_arg13) := by
  show StableHlo.after hostOps0 (W0 m ρ c) (Proc.devRef .tc main_arg13) = _
  after_results_simp <;> rfl
theorem W1_arg14 (c : Dev nD) : W1 m ρ c (Proc.devRef .tc main_arg14) = m ((c : Thread nD τ).loc main_arg14) := by
  show StableHlo.after hostOps0 (W0 m ρ c) (Proc.devRef .tc main_arg14) = _
  after_results_simp <;> rfl
theorem W1_arg15 (c : Dev nD) : W1 m ρ c (Proc.devRef .tc main_arg15) = m ((c : Thread nD τ).loc main_arg15) := by
  show StableHlo.after hostOps0 (W0 m ρ c) (Proc.devRef .tc main_arg15) = _
  after_results_simp <;> rfl
theorem W1_arg16 (c : Dev nD) : W1 m ρ c (Proc.devRef .tc main_arg16) = m ((c : Thread nD τ).loc main_arg16) := by
  show StableHlo.after hostOps0 (W0 m ρ c) (Proc.devRef .tc main_arg16) = _
  after_results_simp <;> rfl
theorem W1_arg17 (c : Dev nD) : W1 m ρ c (Proc.devRef .tc main_arg17) = m ((c : Thread nD τ).loc main_arg17) := by
  show StableHlo.after hostOps0 (W0 m ρ c) (Proc.devRef .tc main_arg17) = _
  after_results_simp <;> rfl
theorem W1_arg18 (c : Dev nD) : W1 m ρ c (Proc.devRef .tc main_arg18) = m ((c : Thread nD τ).loc main_arg18) := by
  show StableHlo.after hostOps0 (W0 m ρ c) (Proc.devRef .tc main_arg18) = _
  after_results_simp <;> rfl
theorem W1_arg19 (c : Dev nD) : W1 m ρ c (Proc.devRef .tc main_arg19) = m ((c : Thread nD τ).loc main_arg19) := by
  show StableHlo.after hostOps0 (W0 m ρ c) (Proc.devRef .tc main_arg19) = _
  after_results_simp <;> rfl

/-- The transposed weight matrices (a change of float format is the identity on the extended reals). -/
theorem W1_v1 (c : Dev nD) : (W1 m ρ c (Proc.devRef .tc main_v1) : S256x512.Idx → EReal)
    = transpose S256x512 [1, 0] (m ((c : Thread nD τ).loc main_arg7)) transposes_S512x256_S256x512_1_0 := by
  show StableHlo.after hostOps0 (W0 m ρ c) (Proc.devRef .tc main_v1) = _
  after_results_simp <;> rfl
theorem W1_v3 (c : Dev nD) : (W1 m ρ c (Proc.devRef .tc main_v3) : S256x128.Idx → EReal)
    = transpose S256x128 [1, 0] (m ((c : Thread nD τ).loc main_arg9)) transposes_S128x256_S256x128_1_0 := by
  show StableHlo.after hostOps0 (W0 m ρ c) (Proc.devRef .tc main_v3) = _
  after_results_simp <;> rfl
theorem W1_v5 (c : Dev nD) : (W1 m ρ c (Proc.devRef .tc main_v5) : S128x256.Idx → EReal)
    = transpose S128x256 [1, 0] (m ((c : Thread nD τ).loc main_arg11)) transposes_S256x128_S128x256_1_0 := by
  show StableHlo.after hostOps0 (W0 m ρ c) (Proc.devRef .tc main_v5) = _
  after_results_simp <;> rfl
/-- The bias vectors as rows. -/
theorem W1_v6 (c : Dev nD) : (W1 m ρ c (Proc.devRef .tc main_v6) : S1x512.Idx → EReal)
    = shapeCast S1x512 (m ((c : Thread nD τ).loc main_arg8)) shapeCasts_S512_S1x512 := by
  show StableHlo.after hostOps0 (W0 m ρ c) (Proc.devRef .tc main_v6) = _
  after_results_simp <;> rfl
theorem W1_v7 (c : Dev nD) : (W1 m ρ c (Proc.devRef .tc main_v7) : S1x128.Idx → EReal)
    = shapeCast S1x128 (m ((c : Thread nD τ).loc main_arg10)) shapeCasts_S128_S1x128 := by
  show StableHlo.after hostOps0 (W0 m ρ c) (Proc.devRef .tc main_v7) = _
  after_results_simp <;> rfl
theorem W1_v8 (c : Dev nD) : (W1 m ρ c (Proc.devRef .tc main_v8) : S1x256.Idx → EReal)
    = shapeCast S1x256 (m ((c : Thread nD τ).loc main_arg12)) shapeCasts_S256_S1x256 := by
  show StableHlo.after hostOps0 (W0 m ρ c) (Proc.devRef .tc main_v8) = _
  after_results_simp <;> rfl

/-! ## After the node region -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W2_arg16 (c : Dev nD) : W2 m ρ c (Proc.devRef .tc main_arg16) = m ((c : Thread nD τ).loc main_arg16) :=
  (W2_of_ne m ρ c main_arg16 (by decide)).trans (W1_arg16 m ρ c)
theorem W2_arg17 (c : Dev nD) : W2 m ρ c (Proc.devRef .tc main_arg17) = m ((c : Thread nD τ).loc main_arg17) :=
  (W2_of_ne m ρ c main_arg17 (by decide)).trans (W1_arg17 m ρ c)
theorem W2_arg18 (c : Dev nD) : W2 m ρ c (Proc.devRef .tc main_arg18) = m ((c : Thread nD τ).loc main_arg18) :=
  (W2_of_ne m ρ c main_arg18 (by decide)).trans (W1_arg18 m ρ c)
theorem W2_arg19 (c : Dev nD) : W2 m ρ c (Proc.devRef .tc main_arg19) = m ((c : Thread nD τ).loc main_arg19) :=
  (W2_of_ne m ρ c main_arg19 (by decide)).trans (W1_arg19 m ρ c)
theorem W2_v5 (c : Dev nD) : (W2 m ρ c (Proc.devRef .tc main_v5) : S128x256.Idx → EReal)
    = transpose S128x256 [1, 0] (m ((c : Thread nD τ).loc main_arg11)) transposes_S256x128_S128x256_1_0 :=
  (W2_of_ne m ρ c main_v5 (by decide)).trans (W1_v5 m ρ c)
theorem W2_v8 (c : Dev nD) : (W2 m ρ c (Proc.devRef .tc main_v8) : S1x256.Idx → EReal)
    = shapeCast S1x256 (m ((c : Thread nD τ).loc main_arg12)) shapeCasts_S256_S1x256 :=
  (W2_of_ne m ρ c main_v8 (by decide)).trans (W1_v8 m ρ c)

/-- `fv_out` after the node region. -/
theorem W2_v9_0 (c : Dev nD) : (W2 m ρ c (Proc.devRef .tc main_v9_0) : S65536x256.Idx → EReal)
    = nodeOut (m ((c : Thread nD τ).loc main_arg0)) (m ((c : Thread nD τ).loc main_arg4)) (m ((c : Thread nD τ).loc main_arg6))
        (transpose S256x512 [1, 0] (m ((c : Thread nD τ).loc main_arg7)) transposes_S512x256_S256x512_1_0)
        (shapeCast S1x512 (m ((c : Thread nD τ).loc main_arg8)) shapeCasts_S512_S1x512) := by
  refine (W2_arr m ρ c 7).trans ((NodeArrays.final7 (V1 m ρ) c).trans ?_)
  show nodeOut (W1 m ρ c (Proc.devRef .tc main_arg0)) (W1 m ρ c (Proc.devRef .tc main_arg4)) (W1 m ρ c (Proc.devRef .tc main_arg6))
      (W1 m ρ c (Proc.devRef .tc main_v1)) (W1 m ρ c (Proc.devRef .tc main_v6)) = _
  rw [W1_arg0, W1_arg4, W1_arg6, W1_v1, W1_v6]

/-- The node projection after the node region. -/
theorem W2_v9_1 (c : Dev nD) : (W2 m ρ c (Proc.devRef .tc main_v9_1) : S65536x128.Idx → EReal)
    = proj (m ((c : Thread nD τ).loc main_arg6)) (transpose S256x128 [1, 0] (m ((c : Thread nD τ).loc main_arg9)) transposes_S128x256_S256x128_1_0)
        (shapeCast S1x128 (m ((c : Thread nD τ).loc main_arg10)) shapeCasts_S128_S1x128) := by
  refine (W2_arr m ρ c 8).trans ((NodeArrays.final8 (V1 m ρ) c).trans ?_)
  show proj (W1 m ρ c (Proc.devRef .tc main_arg6)) (W1 m ρ c (Proc.devRef .tc main_v3)) (W1 m ρ c (Proc.devRef .tc main_v7)) = _
  rw [W1_arg6, W1_v3, W1_v7]

/-! ## After the second stretch -/

/-- An index vector as the gather takes it: negative indices wrapped by the array's length, as a column. -/
def idxCol (s : IVec S262144 32) : IVec S262144x1 32 :=
  broadcastInDim S262144x1 ![0] bcast_S262144_S262144x1_0
    (select (cmpi .slt s (broadcastInDim S262144 ![] bcast_S_S262144 (constantI S_ 32 0#32)))
      (addi s (broadcastInDim S262144 ![] bcast_S_S262144 (constantI S_ 32 65536#32))) s)

/-- The projection gathered at the two ends of every edge, added. -/
def gathered (P : FVec Ideal S65536x128 .f32) (s d : IVec S262144 32) : FVec Ideal S262144x128 .f32 :=
  addf (Host.gather gather_S65536x128_S262144x1_S262144x128_1_0_n_n_0_1_1128 P (idxCol s))
    (Host.gather gather_S65536x128_S262144x1_S262144x128_1_0_n_n_0_1_1128 P (idxCol d))

theorem W3_arg1 (c : Dev nD) : W3 m ρ c (Proc.devRef .tc main_arg1) = m ((c : Thread nD τ).loc main_arg1) := by
  show StableHlo.after hostOps1 (W2 m ρ c) (Proc.devRef .tc main_arg1) = _
  after_results_simp
  exact W2_arg1 m ρ c
theorem W3_arg2 (c : Dev nD) : W3 m ρ c (Proc.devRef .tc main_arg2) = m ((c : Thread nD τ).loc main_arg2) := by
  show StableHlo.after hostOps1 (W2 m ρ c) (Proc.devRef .tc main_arg2) = _
  after_results_simp
  exact W2_arg2 m ρ c
theorem W3_arg3 (c : Dev nD) : W3 m ρ c (Proc.devRef .tc main_arg3) = m ((c : Thread nD τ).loc main_arg3) := by
  show StableHlo.after hostOps1 (W2 m ρ c) (Proc.devRef .tc main_arg3) = _
  after_results_simp
  exact W2_arg3 m ρ c
theorem W3_arg5 (c : Dev nD) : W3 m ρ c (Proc.devRef .tc main_arg5) = m ((c : Thread nD τ).loc main_arg5) := by
  show StableHlo.after hostOps1 (W2 m ρ c) (Proc.devRef .tc main_arg5) = _
  after_results_simp
  exact W2_arg5 m ρ c
theorem W3_arg13 (c : Dev nD) : W3 m ρ c (Proc.devRef .tc main_arg13) = m ((c : Thread nD τ).loc main_arg13) := by
  show StableHlo.after hostOps1 (W2 m ρ c) (Proc.devRef .tc main_arg13) = _
  after_results_simp
  exact W2_arg13 m ρ c
theorem W3_arg14 (c : Dev nD) : W3 m ρ c (Proc.devRef .tc main_arg14) = m ((c : Thread nD τ).loc main_arg14) := by
  show StableHlo.after hostOps1 (W2 m ρ c) (Proc.devRef .tc main_arg14) = _
  after_results_simp
  exact W2_arg14 m ρ c
theorem W3_arg15 (c : Dev nD) : W3 m ρ c (Proc.devRef .tc main_arg15) = m ((c : Thread nD τ).loc main_arg15) := by
  show StableHlo.after hostOps1 (W2 m ρ c) (Proc.devRef .tc main_arg15) = _
  after_results_simp
  exact W2_arg15 m ρ c
theorem W3_arg16 (c : Dev nD) : W3 m ρ c (Proc.devRef .tc main_arg16) = m ((c : Thread nD τ).loc main_arg16) := by
  show StableHlo.after hostOps1 (W2 m ρ c) (Proc.devRef .tc main_arg16) = _
  after_results_simp
  exact W2_arg16 m ρ c
theorem W3_arg19 (c : Dev nD) : W3 m ρ c (Proc.devRef .tc main_arg19) = m ((c : Thread nD τ).loc main_arg19) := by
  show StableHlo.after hostOps1 (W2 m ρ c) (Proc.devRef .tc main_arg19) = _
  after_results_simp
  exact W2_arg19 m ρ c
theorem W3_v5 (c : Dev nD) : (W3 m ρ c (Proc.devRef .tc main_v5) : S128x256.Idx → EReal)
    = transpose S128x256 [1, 0] (m ((c : Thread nD τ).loc main_arg11)) transposes_S256x128_S128x256_1_0 := by
  show StableHlo.after hostOps1 (W2 m ρ c) (Proc.devRef .tc main_v5) = _
  after_results_simp
  exact W2_v5 m ρ c
theorem W3_v8 (c : Dev nD) : (W3 m ρ c (Proc.devRef .tc main_v8) : S1x256.Idx → EReal)
    = shapeCast S1x256 (m ((c : Thread nD τ).loc main_arg12)) shapeCasts_S256_S1x256 := by
  show StableHlo.after hostOps1 (W2 m ρ c) (Proc.devRef .tc main_v8) = _
  after_results_simp
  exact W2_v8 m ρ c
theorem W3_v9_0 (c : Dev nD) : W3 m ρ c (Proc.devRef .tc main_v9_0) = W2 m ρ c (Proc.devRef .tc main_v9_0) := by
  show StableHlo.after hostOps1 (W2 m ρ c) (Proc.devRef .tc main_v9_0) = _
  after_results_simp

theorem W3_v24 (c : Dev nD) : (W3 m ρ c (Proc.devRef .tc main_v24) : S262144x128.Idx → EReal)
    = gathered (proj (m ((c : Thread nD τ).loc main_arg6)) (transpose S256x128 [1, 0] (m ((c : Thread nD τ).loc main_arg9)) transposes_S128x256_S256x128_1_0)
        (shapeCast S1x128 (m ((c : Thread nD τ).loc main_arg10)) shapeCasts_S128_S1x128)) (m ((c : Thread nD τ).loc main_arg17)) (m ((c : Thread nD τ).loc main_arg18)) := by
  have e : (W3 m ρ c (Proc.devRef .tc main_v24) : S262144x128.Idx → EReal)
      = gathered (W2 m ρ c (Proc.devRef .tc main_v9_1)) (W2 m ρ c (Proc.devRef .tc main_arg17))
          (W2 m ρ c (Proc.devRef .tc main_arg18)) := by
    show StableHlo.after hostOps1 (W2 m ρ c) (Proc.devRef .tc main_v24) = _
    after_results_simp <;> rfl
  rw [e, W2_v9_1, W2_arg17, W2_arg18]

/-! ## After the edge region -/

/-- `fe_out` after the edge region. -/
theorem W4_v25 (c : Dev nD) : (W4 m ρ c (Proc.devRef .tc main_v25) : S262144x128.Idx → EReal)
    = edgeOut (m ((c : Thread nD τ).loc main_arg1)) (m ((c : Thread nD τ).loc main_arg5))
        (gathered (proj (m ((c : Thread nD τ).loc main_arg6)) (transpose S256x128 [1, 0] (m ((c : Thread nD τ).loc main_arg9)) transposes_S128x256_S256x128_1_0)
          (shapeCast S1x128 (m ((c : Thread nD τ).loc main_arg10)) shapeCasts_S128_S1x128)) (m ((c : Thread nD τ).loc main_arg17)) (m ((c : Thread nD τ).loc main_arg18)))
        (transpose S128x256 [1, 0] (m ((c : Thread nD τ).loc main_arg11)) transposes_S256x128_S128x256_1_0)
        (shapeCast S1x256 (m ((c : Thread nD τ).loc main_arg12)) shapeCasts_S256_S1x256) := by
  refine (W4_arr m ρ c 5).trans ((EdgeArrays.final5 (V3 m ρ) c).trans ?_)
  show edgeOut (W3 m ρ c (Proc.devRef .tc main_arg1)) (W3 m ρ c (Proc.devRef .tc main_arg5)) (W3 m ρ c (Proc.devRef .tc main_v24))
      (W3 m ρ c (Proc.devRef .tc main_v5)) (W3 m ρ c (Proc.devRef .tc main_v8)) = _
  rw [W3_arg1, W3_arg5, W3_v24, W3_v5, W3_v8]

theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W4_arg14 (c : Dev nD) : W4 m ρ c (Proc.devRef .tc main_arg14) = m ((c : Thread nD τ).loc main_arg14) :=
  (W4_of_ne m ρ c main_arg14 (by decide)).trans (W3_arg14 m ρ c)
theorem W4_arg15 (c : Dev nD) : W4 m ρ c (Proc.devRef .tc main_arg15) = m ((c : Thread nD τ).loc main_arg15) :=
  (W4_of_ne m ρ c main_arg15 (by decide)).trans (W3_arg15 m ρ c)
theorem W4_arg16 (c : Dev nD) : W4 m ρ c (Proc.devRef .tc main_arg16) = m ((c : Thread nD τ).loc main_arg16) :=
  (W4_of_ne m ρ c main_arg16 (by decide)).trans (W3_arg16 m ρ c)
theorem W4_arg19 (c : Dev nD) : W4 m ρ c (Proc.devRef .tc main_arg19) = m ((c : Thread nD τ).loc main_arg19) :=
  (W4_of_ne m ρ c main_arg19 (by decide)).trans (W3_arg19 m ρ c)
theorem W4_v9_0 (c : Dev nD) : W4 m ρ c (Proc.devRef .tc main_v9_0) = W2 m ρ c (Proc.devRef .tc main_v9_0) :=
  (W4_of_ne m ρ c main_v9_0 (by decide)).trans (W3_v9_0 m ρ c)

/-! ## At the end: the first two results are the regions' arrays, untouched by the last stretches -/

theorem W7_v9_0 (c : Dev nD) : W7 m ρ c (Proc.devRef .tc main_v9_0) = W2 m ρ c (Proc.devRef .tc main_v9_0) := by
  show StableHlo.after hostOps2_2 (StableHlo.after hostOps2_1 (StableHlo.after hostOps2 (W4 m ρ c))) (Proc.devRef .tc main_v9_0) = _
  after_results_simp
  exact W4_v9_0 m ρ c

theorem W7_v25 (c : Dev nD) : W7 m ρ c (Proc.devRef .tc main_v25) = W4 m ρ c (Proc.devRef .tc main_v25) := by
  show StableHlo.after hostOps2_2 (StableHlo.after hostOps2_1 (StableHlo.after hostOps2 (W4 m ρ c))) (Proc.devRef .tc main_v25) = _
  after_results_simp

end Cert.KernelIdeal.Values

end
-- ==== Proof.RefNode.lean ====
/-
  The reference's node part, read row by row.

  The reference computes `fv_out` and the node projection `fvp` with whole-array operations: a sum along the columns
  kept as a column and broadcast back, a matrix product against the transposed weights, a bias row broadcast over the
  rows, the two halves of the product sliced out. Read at entry `(r, j)`, each of these involves row `r` only, and the
  result is `ArraySpec.nodeOut` (resp. `ArraySpec.proj`) of the argument arrays, the weights transposed and the bias
  as a row — stated here for ANY arrays `WT`, `B` that hold the transposed weights and the bias row.
-/
import proofs.«160367_j17669495456065_1_alg».proof.Proof.Gen.ReferenceIdeal.Read
import proofs.«160367_j17669495456065_1_alg».proof.Proof.ArraySpec

noncomputable section

namespace Cert.ReferenceIdeal.RefNode

open Cert.ReferenceIdeal Cert.ReferenceIdeal.Read Cert.ArraySpec Cert.RowSpec
open Idealize.ShloMosaic Idealize.ShloMosaic.ValueIdx

/-- The float 1.0 is the number one. -/
theorem ofBits_one : Ideal.ofBits .f32 0x3F800000#32 = (1 : EReal) := by
  simp [Ideal.ofBits, Ideal.ieee]
  rw [← EReal.coe_mul, ← EReal.coe_one]
  exact congrArg _ (by norm_num)

/-- jax's `silu` (`z · (1 / (1 + e^(-z)))`) of the sum of two arrays, at an index. -/
theorem silu_apply (x4 x6 : S65536x256.Idx → EReal) (i : S65536x256.Idx) :
    val_main_v1 (F := Ideal) x4 x6 i = siluSum (x4 i) (x6 i) := by
  show (x4 i + x6 i) * Ideal.div (Ideal.ofBits .f32 0x3F800000#32)
      (Ideal.ofBits .f32 0x3F800000#32 + Ideal.exp (-(x4 i + x6 i))) = _
  rw [ofBits_one]
  rfl

/-- The modulation matrix at `(r, q)`: the affine image of `silu (fv_c + fv_pos_c)` at row `r`. -/
theorem mod_apply (x4 x6 : S65536x256.Idx → EReal) (x7 : S512x256.Idx → EReal) (x8 : S512.Idx → EReal)
    (WT : S256x512.Idx → EReal) (B : S1x512.Idx → EReal)
    (hW : ∀ (k : Fin 256) (q : Fin 512), WT (ix2 k q) = x7 (ix2 q k))
    (hB : ∀ q : Fin 512, B (ix2 (0 : Fin 1) q) = x8 (ix1 q)) (r : Fin 65536) (q : Fin 512) :
    val_main_v6 (F := Ideal) x4 x6 x7 x8 (ix2 r q)
      = affine (fun k : Fin 256 => siluSum (x4 (ix2 r k)) (x6 (ix2 r k))) (fun k : Fin 256 => WT (ix2 k q))
          (B (ix2 (0 : Fin 1) q)) := by
  rw [val_main_v6_apply, val_main_v3_apply, val_main_v5_apply, val_main_v4_apply]
  refine congrArg₂ (· + ·) (Finset.sum_congr rfl fun k _ => ?_) ?_
  · show val_main_v1 (F := Ideal) x4 x6 (lidx_main_v3 (ix2 r q) k) * val_main_v2 (F := Ideal) x7 (ridx_main_v3 (ix2 r q) k)
      = siluSum (x4 (ix2 r k)) (x6 (ix2 r k)) * WT (ix2 k q)
    rw [silu_apply, val_main_v2_apply, hW]
    refine congrArg₂ (· * ·) (congrArg₂ siluSum (congrArg x4 ?_) (congrArg x6 ?_)) (congrArg x7 ?_) <;>
      exact funext fun a => Fin.ext (by match a with | ⟨0, _⟩ => rfl | ⟨1, _⟩ => rfl)
  · rw [hB]
    exact congrArg x8 (funext fun a => Fin.ext (by match a with | ⟨0, _⟩ => rfl))

/-- A row's mean. -/
theorem mean_apply (x0 : S65536x256.Idx → EReal) (r : Fin 65536) (u : Fin 1) :
    val_main_v12 (F := Ideal) x0 (ix2 r u) = rowMean c256 (fun k : Fin 256 => x0 (ix2 r k)) := by
  rw [val_main_v12_apply, val_main_v10_apply, val_main_v9_apply, val_main_v11_apply]
  show Ideal.div (Ideal.ofBits .f32 0x00000000#32 + _) c256 = _
  rw [Ideal.ofBits_zero_f32, zero_add]
  exact congrArg (Ideal.div · c256) (Finset.sum_congr rfl fun k _ => congrArg x0
    (funext fun a => Fin.ext (by match a with | ⟨0, _⟩ => rfl | ⟨1, _⟩ => rfl)))

/-- An entry's deviation from its row's mean. -/
theorem centred_apply (x0 : S65536x256.Idx → EReal) (r : Fin 65536) (j : Fin 256) :
    val_main_v14 (F := Ideal) x0 (ix2 r j) = x0 (ix2 r j) - rowMean c256 (fun k : Fin 256 => x0 (ix2 r k)) := by
  rw [val_main_v14_apply, val_main_v13_apply,
    show idx_main_v13 (ix2 r j) = ix2 r (0 : Fin 1) from
      funext fun a => Fin.ext (by match a with | ⟨0, _⟩ => rfl | ⟨1, _⟩ => rfl), mean_apply]
  rfl

theorem centred_apply' (x0 : S65536x256.Idx → EReal) (r : Fin 65536) (j : Fin 256) :
    val_main_v21 (F := Ideal) x0 (ix2 r j) = x0 (ix2 r j) - rowMean c256 (fun k : Fin 256 => x0 (ix2 r k)) := by
  rw [val_main_v21_apply, val_main_v20_apply,
    show idx_main_v20 (ix2 r j) = ix2 r (0 : Fin 1) from
      funext fun a => Fin.ext (by match a with | ⟨0, _⟩ => rfl | ⟨1, _⟩ => rfl), mean_apply]
  rfl

/-- A row's variance. -/
theorem var_apply (x0 : S65536x256.Idx → EReal) (r : Fin 65536) (u : Fin 1) :
    val_main_v19 (F := Ideal) x0 (ix2 r u) = rowVar c256 (fun k : Fin 256 => x0 (ix2 r k)) := by
  rw [val_main_v19_apply, val_main_v17_apply, val_main_v16_apply, val_main_v18_apply]
  show Ideal.div (Ideal.ofBits .f32 0x00000000#32 + _) c256 = _
  rw [Ideal.ofBits_zero_f32, zero_add]
  refine congrArg (Ideal.div · c256) (Finset.sum_congr rfl fun k _ => ?_)
  rw [show idx_main_v16 (idx_main_v17 (ix2 r u)) k = ix2 r k from
      funext fun a => Fin.ext (by match a with | ⟨0, _⟩ => rfl | ⟨1, _⟩ => rfl), val_main_v15_apply, centred_apply]
  rfl

/-- The normalised row at `j`. -/
theorem norm_apply (x0 : S65536x256.Idx → EReal) (r : Fin 65536) (j : Fin 256) :
    val_main_v26 (F := Ideal) x0 (ix2 r j) = rowNorm c256 cEps (fun k : Fin 256 => x0 (ix2 r k)) j := by
  rw [val_main_v26_apply, centred_apply', val_main_v25_apply,
    show idx_main_v25 (ix2 r j) = ix2 r (0 : Fin 1) from
      funext fun a => Fin.ext (by match a with | ⟨0, _⟩ => rfl | ⟨1, _⟩ => rfl),
    val_main_v24_apply, val_main_v23_apply, var_apply, val_main_v22_apply]
  rfl

/-- THE REFERENCE'S `fv_out` is `nodeOut` of the arguments. -/
theorem nodeOut_eq (x0 x4 x6 : S65536x256.Idx → EReal) (x7 : S512x256.Idx → EReal) (x8 : S512.Idx → EReal)
    (WT : S256x512.Idx → EReal) (B : S1x512.Idx → EReal)
    (hW : ∀ (k : Fin 256) (q : Fin 512), WT (ix2 k q) = x7 (ix2 q k))
    (hB : ∀ q : Fin 512, B (ix2 (0 : Fin 1) q) = x8 (ix1 q)) :
    val_main_v30 (F := Ideal) x0 x4 x6 x7 x8 = nodeOut x0 x4 x6 WT B := by
  funext i
  obtain ⟨r, j, rfl⟩ : ∃ (r : Fin 65536) (j : Fin 256), i = ix2 r j := ⟨i 0, i 1, eq_ix2 i⟩
  show val_main_v30 (F := Ideal) x0 x4 x6 x7 x8 (ix2 r j) = nodeOutAt x0 x4 x6 WT B r j
  rw [val_main_v30_apply, val_main_v29_apply, val_main_v28_apply, val_main_v27_apply, val_main_v8_apply, val_main_v7_apply,
    norm_apply,
    show idx_main_v8 (ix2 r j) = ix2 r (scaleCol256 j) from
      funext fun a => Fin.ext (by match a with | ⟨0, _⟩ => rfl | ⟨1, _⟩ => rfl),
    show idx_main_v7 (ix2 r j) = ix2 r (shiftCol256 j) from
      funext fun a => Fin.ext (by match a with | ⟨0, _⟩ => rfl | ⟨1, _⟩ => rfl),
    mod_apply x4 x6 x7 x8 WT B hW hB, mod_apply x4 x6 x7 x8 WT B hW hB]
  rfl

/-- THE REFERENCE'S node projection is `proj` of the arguments. -/
theorem proj_eq (x6 : S65536x256.Idx → EReal) (x9 : S128x256.Idx → EReal) (x10 : S128.Idx → EReal)
    (WT : S256x128.Idx → EReal) (B : S1x128.Idx → EReal)
    (hW : ∀ (k : Fin 256) (q : Fin 128), WT (ix2 k q) = x9 (ix2 q k))
    (hB : ∀ q : Fin 128, B (ix2 (0 : Fin 1) q) = x10 (ix1 q)) :
    val_main_v35 (F := Ideal) x6 x9 x10 = proj x6 WT B := by
  funext i
  obtain ⟨r, q, rfl⟩ : ∃ (r : Fin 65536) (q : Fin 128), i = ix2 r q := ⟨i 0, i 1, eq_ix2 i⟩
  show val_main_v35 (F := Ideal) x6 x9 x10 (ix2 r q)
    = affine (fun k : Fin 256 => x6 (ix2 r k)) (fun k : Fin 256 => WT (ix2 k q)) (B (ix2 (0 : Fin 1) q))
  rw [val_main_v35_apply, val_main_v32_apply, val_main_v34_apply, val_main_v33_apply]
  refine congrArg₂ (· + ·) (Finset.sum_congr rfl fun k _ => ?_) ?_
  · show x6 (lidx_main_v32 (ix2 r q) k) * val_main_v31 (F := Ideal) x9 (ridx_main_v32 (ix2 r q) k) = x6 (ix2 r k) * WT (ix2 k q)
    rw [val_main_v31_apply, hW]
    refine congrArg₂ (· * ·) (congrArg x6 ?_) (congrArg x9 ?_) <;>
      exact funext fun a => Fin.ext (by match a with | ⟨0, _⟩ => rfl | ⟨1, _⟩ => rfl)
  · rw [hB]
    exact congrArg x10 (funext fun a => Fin.ext (by match a with | ⟨0, _⟩ => rfl))

end Cert.ReferenceIdeal.RefNode

end
-- ==== Proof.RefEdge.lean ====
/-
  The reference's edge part, read row by row.

  The reference computes `fe_out` as it computes `fv_out`: sums along the columns kept as columns and broadcast back,
  a matrix product of `silu (fe_c + fv2e)` against the transposed weights, a bias row, the two halves sliced out —
  `fv2e` being the node projection gathered at the two ends of every edge and added. Read at entry `(r, j)` only row
  `r` of `fe`, `fe_c` and `fv2e` is involved, and the result is `ArraySpec.edgeOut`, the gathered array left as the
  reference's own term (both programs gather it alike) — stated for ANY arrays `WT`, `B` that hold the transposed
  weights and the bias row.
-/
import proofs.«160367_j17669495456065_1_alg».proof.Proof.Gen.ReferenceIdeal.Read
import proofs.«160367_j17669495456065_1_alg».proof.Proof.RefNode

noncomputable section

namespace Cert.ReferenceIdeal.RefEdge

open Cert.ReferenceIdeal Cert.ReferenceIdeal.Read Cert.ArraySpec Cert.RowSpec
open Idealize.ShloMosaic Idealize.ShloMosaic.ValueIdx

/-- jax's `silu` of `fe_c` plus the gathered array, at an index. -/
theorem silu_apply (x5 : S262144x128.Idx → EReal) (x6 : S65536x256.Idx → EReal) (x9 : S128x256.Idx → EReal)
    (x10 : S128.Idx → EReal) (x17 x18 : S262144.Idx → BitVec 32) (i : S262144x128.Idx) :
    val_main_v52 (F := Ideal) x5 x6 x9 x10 x17 x18 i = siluSum (x5 i) (val_main_v50 (F := Ideal) x6 x9 x10 x17 x18 i) := by
  show (x5 i + val_main_v50 (F := Ideal) x6 x9 x10 x17 x18 i) * Ideal.div (Ideal.ofBits .f32 0x3F800000#32)
      (Ideal.ofBits .f32 0x3F800000#32 + Ideal.exp (-(x5 i + val_main_v50 (F := Ideal) x6 x9 x10 x17 x18 i))) = _
  rw [RefNode.ofBits_one]
  rfl

/-- The modulation matrix at `(r, q)`: the affine image of `silu (fe_c + fv2e)` at row `r`. -/
theorem mod_apply (x5 : S262144x128.Idx → EReal) (x6 : S65536x256.Idx → EReal) (x9 : S128x256.Idx → EReal)
    (x10 : S128.Idx → EReal) (x11 : S256x128.Idx → EReal) (x12 : S256.Idx → EReal) (x17 x18 : S262144.Idx → BitVec 32)
    (WT : S128x256.Idx → EReal) (B : S1x256.Idx → EReal)
    (hW : ∀ (k : Fin 128) (q : Fin 256), WT (ix2 k q) = x11 (ix2 q k))
    (hB : ∀ q : Fin 256, B (ix2 (0 : Fin 1) q) = x12 (ix1 q)) (r : Fin 262144) (q : Fin 256) :
    val_main_v57 (F := Ideal) x5 x6 x9 x10 x11 x12 x17 x18 (ix2 r q)
      = affine (fun k : Fin 128 => siluSum (x5 (ix2 r k)) (val_main_v50 (F := Ideal) x6 x9 x10 x17 x18 (ix2 r k)))
          (fun k : Fin 128 => WT (ix2 k q)) (B (ix2 (0 : Fin 1) q)) := by
  rw [val_main_v57_apply, val_main_v54_apply, val_main_v56_apply, val_main_v55_apply]
  refine congrArg₂ (· + ·) (Finset.sum_congr rfl fun k _ => ?_) ?_
  · show val_main_v52 (F := Ideal) x5 x6 x9 x10 x17 x18 (lidx_main_v54 (ix2 r q) k)
        * val_main_v53 (F := Ideal) x11 (ridx_main_v54 (ix2 r q) k)
      = siluSum (x5 (ix2 r k)) (val_main_v50 (F := Ideal) x6 x9 x10 x17 x18 (ix2 r k)) * WT (ix2 k q)
    rw [silu_apply, val_main_v53_apply, hW,
      show lidx_main_v54 (ix2 r q) k = ix2 r k from funext fun a => Fin.ext (by match a with | ⟨0, _⟩ => rfl | ⟨1, _⟩ => rfl)]
    exact congrArg (_ * x11 ·) (funext fun a => Fin.ext (by match a with | ⟨0, _⟩ => rfl | ⟨1, _⟩ => rfl))
  · rw [hB]
    exact congrArg x12 (funext fun a => Fin.ext (by match a with | ⟨0, _⟩ => rfl))

/-- A row's mean. -/
theorem mean_apply (x1 : S262144x128.Idx → EReal) (r : Fin 262144) (u : Fin 1) :
    val_main_v63 (F := Ideal) x1 (ix2 r u) = rowMean c128 (fun k : Fin 128 => x1 (ix2 r k)) := by
  rw [val_main_v63_apply, val_main_v61_apply, val_main_v60_apply, val_main_v62_apply]
  show Ideal.div (Ideal.ofBits .f32 0x00000000#32 + _) c128 = _
  rw [Ideal.ofBits_zero_f32, zero_add]
  exact congrArg (Ideal.div · c128) (Finset.sum_congr rfl fun k _ => congrArg x1 (funext fun a => Fin.ext (by match a with | ⟨0, _⟩ => rfl | ⟨1, _⟩ => rfl)))

/-- An entry's deviation from its row's mean. -/
theorem centred_apply (x1 : S262144x128.Idx → EReal) (r : Fin 262144) (j : Fin 128) :
    val_main_v65 (F := Ideal) x1 (ix2 r j) = x1 (ix2 r j) - rowMean c128 (fun k : Fin 128 => x1 (ix2 r k)) := by
  rw [val_main_v65_apply, val_main_v64_apply,
    show idx_main_v64 (ix2 r j) = ix2 r (0 : Fin 1) from funext fun a => Fin.ext (by match a with | ⟨0, _⟩ => rfl | ⟨1, _⟩ => rfl), mean_apply]
  rfl

theorem centred_apply' (x1 : S262144x128.Idx → EReal) (r : Fin 262144) (j : Fin 128) :
    val_main_v72 (F := Ideal) x1 (ix2 r j) = x1 (ix2 r j) - rowMean c128 (fun k : Fin 128 => x1 (ix2 r k)) := by
  rw [val_main_v72_apply, val_main_v71_apply,
    show idx_main_v71 (ix2 r j) = ix2 r (0 : Fin 1) from funext fun a => Fin.ext (by match a with | ⟨0, _⟩ => rfl | ⟨1, _⟩ => rfl), mean_apply]
  rfl

/-- A row's variance. -/
theorem var_apply (x1 : S262144x128.Idx → EReal) (r : Fin 262144) (u : Fin 1) :
    val_main_v70 (F := Ideal) x1 (ix2 r u) = rowVar c128 (fun k : Fin 128 => x1 (ix2 r k)) := by
  rw [val_main_v70_apply, val_main_v68_apply, val_main_v67_apply, val_main_v69_apply]
  show Ideal.div (Ideal.ofBits .f32 0x00000000#32 + _) c128 = _
  rw [Ideal.ofBits_zero_f32, zero_add]
  refine congrArg (Ideal.div · c128) (Finset.sum_congr rfl fun k _ => ?_)
  rw [show idx_main_v67 (idx_main_v68 (ix2 r u)) k = ix2 r k from funext fun a => Fin.ext (by match a with | ⟨0, _⟩ => rfl | ⟨1, _⟩ => rfl), val_main_v66_apply, centred_apply]
  rfl

/-- The normalised row at `j`. -/
theorem norm_apply (x1 : S262144x128.Idx → EReal) (r : Fin 262144) (j : Fin 128) :
    val_main_v77 (F := Ideal) x1 (ix2 r j) = rowNorm c128 cEps (fun k : Fin 128 => x1 (ix2 r k)) j := by
  rw [val_main_v77_apply, centred_apply', val_main_v76_apply,
    show idx_main_v76 (ix2 r j) = ix2 r (0 : Fin 1) from funext fun a => Fin.ext (by match a with | ⟨0, _⟩ => rfl | ⟨1, _⟩ => rfl),
    val_main_v75_apply, val_main_v74_apply, var_apply, val_main_v73_apply]
  rfl

/-- THE REFERENCE'S `fe_out` is `edgeOut` of the arguments and its own gathered array. -/
theorem edgeOut_eq (x1 x5 : S262144x128.Idx → EReal) (x6 : S65536x256.Idx → EReal) (x9 : S128x256.Idx → EReal)
    (x10 : S128.Idx → EReal) (x11 : S256x128.Idx → EReal) (x12 : S256.Idx → EReal) (x17 x18 : S262144.Idx → BitVec 32)
    (WT : S128x256.Idx → EReal) (B : S1x256.Idx → EReal)
    (hW : ∀ (k : Fin 128) (q : Fin 256), WT (ix2 k q) = x11 (ix2 q k))
    (hB : ∀ q : Fin 256, B (ix2 (0 : Fin 1) q) = x12 (ix1 q)) :
    val_main_v81 (F := Ideal) x1 x5 x6 x9 x10 x11 x12 x17 x18
      = edgeOut x1 x5 (val_main_v50 (F := Ideal) x6 x9 x10 x17 x18) WT B := by
  funext i
  obtain ⟨r, j, rfl⟩ : ∃ (r : Fin 262144) (j : Fin 128), i = ix2 r j := ⟨i 0, i 1, eq_ix2 i⟩
  show val_main_v81 (F := Ideal) x1 x5 x6 x9 x10 x11 x12 x17 x18 (ix2 r j)
    = edgeOutAt x1 x5 (val_main_v50 (F := Ideal) x6 x9 x10 x17 x18) WT B r j
  rw [val_main_v81_apply, val_main_v80_apply, val_main_v79_apply, val_main_v78_apply, val_main_v59_apply, val_main_v58_apply,
    norm_apply,
    show idx_main_v59 (ix2 r j) = ix2 r (scaleCol128 j) from funext fun a => Fin.ext (by match a with | ⟨0, _⟩ => rfl | ⟨1, _⟩ => rfl),
    show idx_main_v58 (ix2 r j) = ix2 r (shiftCol128 j) from funext fun a => Fin.ext (by match a with | ⟨0, _⟩ => rfl | ⟨1, _⟩ => rfl),
    mod_apply x5 x6 x9 x10 x11 x12 x17 x18 WT B hW hB, mod_apply x5 x6 x9 x10 x11 x12 x17 x18 WT B hW hB]
  rfl

end Cert.ReferenceIdeal.RefEdge

end
-- ==== Proof.Bridge.lean ====
/-
  The two programs' results are the same functions of the argument arrays.

  What is left after both sides are read: the kernel program's first two results are `ArraySpec.nodeOut` and
  `ArraySpec.edgeOut` of the arguments, with the weights transposed and the biases reshaped to rows on the host; the
  reference's are the same functions for any arrays holding the transposed weights and the bias rows — and a
  transposed matrix read at `(k, q)` is the matrix at `(q, k)`, a vector reshaped to a row read at `(0, q)` is the
  vector at `q`. The gathered projection is the same gather of the same array on both sides. The last two results
  (the position normalisation and the graph normalisation) are computed from the argument arrays by the same host
  operations in both programs.
-/
import proofs.«160367_j17669495456065_1_alg».proof.Proof.KernelValues
import proofs.«160367_j17669495456065_1_alg».proof.Proof.RefNode
import proofs.«160367_j17669495456065_1_alg».proof.Proof.RefEdge
import Idealize.ShloMosaic.Lib.ValueLayout

set_option maxRecDepth 16384

noncomputable section

namespace Cert.Bridge

open Cert.KernelIdeal Cert.KernelIdeal.Gen Cert.KernelIdeal.Values Cert.ArraySpec
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg)

/-- The reference's `fv_out` of the kernel's arguments is the kernel program's first result. -/
theorem result0 (c : Dev nD) :
    Cert.ReferenceIdeal.Read.val_main_v30 (F := Ideal) (m ((c : Thread nD τ).loc main_arg0)) (m ((c : Thread nD τ).loc main_arg4)) (m ((c : Thread nD τ).loc main_arg6)) (m ((c : Thread nD τ).loc main_arg7)) (m ((c : Thread nD τ).loc main_arg8))
      = W7 m ρ c (Proc.devRef .tc main_v9_0) := by
  rw [W7_v9_0, W2_v9_0]
  exact Cert.ReferenceIdeal.RefNode.nodeOut_eq _ _ _ _ _ _ _
    (fun k q => transpose_ix2_apply _ transposes_S512x256_S256x512_1_0 k q)
    (fun q => shapeCast_a_1a_apply _ shapeCasts_S512_S1x512 0 q)

/-- The gathered projection: the same gather, of the same array, by the same indices. -/
theorem gathered_eq (c : Dev nD) :
    gathered (proj (m ((c : Thread nD τ).loc main_arg6)) (transpose S256x128 [1, 0] (m ((c : Thread nD τ).loc main_arg9)) transposes_S128x256_S256x128_1_0)
        (shapeCast S1x128 (m ((c : Thread nD τ).loc main_arg10)) shapeCasts_S128_S1x128)) (m ((c : Thread nD τ).loc main_arg17)) (m ((c : Thread nD τ).loc main_arg18))
      = Cert.ReferenceIdeal.Read.val_main_v50 (F := Ideal) (m ((c : Thread nD τ).loc main_arg6)) (m ((c : Thread nD τ).loc main_arg9)) (m ((c : Thread nD τ).loc main_arg10)) (m ((c : Thread nD τ).loc main_arg17)) (m ((c : Thread nD τ).loc main_arg18)) := by
  rw [← Cert.ReferenceIdeal.RefNode.proj_eq (m ((c : Thread nD τ).loc main_arg6)) (m ((c : Thread nD τ).loc main_arg9)) (m ((c : Thread nD τ).loc main_arg10)) _ _
    (fun k q => transpose_ix2_apply _ transposes_S128x256_S256x128_1_0 k q)
    (fun q => shapeCast_a_1a_apply _ shapeCasts_S128_S1x128 0 q)]
  rfl

/-- The reference's `fe_out` of the kernel's arguments is the kernel program's second result. -/
theorem result1 (c : Dev nD) :
    Cert.ReferenceIdeal.Read.val_main_v81 (F := Ideal) (m ((c : Thread nD τ).loc main_arg1)) (m ((c : Thread nD τ).loc main_arg5)) (m ((c : Thread nD τ).loc main_arg6)) (m ((c : Thread nD τ).loc main_arg9)) (m ((c : Thread nD τ).loc main_arg10)) (m ((c : Thread nD τ).loc main_arg11))
        (m ((c : Thread nD τ).loc main_arg12)) (m ((c : Thread nD τ).loc main_arg17)) (m ((c : Thread nD τ).loc main_arg18))
      = W7 m ρ c (Proc.devRef .tc main_v25) := by
  rw [W7_v25, W4_v25, gathered_eq]
  exact Cert.ReferenceIdeal.RefEdge.edgeOut_eq _ _ _ _ _ _ _ _ _ _ _
    (fun k q => transpose_ix2_apply _ transposes_S256x128_S128x256_1_0 k q)
    (fun q => shapeCast_a_1a_apply _ shapeCasts_S256_S1x256 0 q)

/-- The graph normalisation: the same host operations of the same arguments. -/
theorem result2 (c : Dev nD) :
    Cert.ReferenceIdeal.Read.val_main_v161 (F := Ideal) (m ((c : Thread nD τ).loc main_arg2)) (m ((c : Thread nD τ).loc main_arg13)) (m ((c : Thread nD τ).loc main_arg14))
      = W7 m ρ c (Proc.devRef .tc main_v105) := by
  symm
  show StableHlo.after hostOps2_2 (StableHlo.after hostOps2_1 (StableHlo.after hostOps2 (W4 m ρ c))) (Proc.devRef .tc main_v105) = _
  after_results_simp
  rw [W4_arg2, W4_arg13, W4_arg14]
  rfl

set_option maxHeartbeats 40000000 in
/-- The position normalisation: the same host operations of the same arguments. -/
theorem result3 (c : Dev nD) :
    Cert.ReferenceIdeal.Read.val_main_v137 (F := Ideal) (m ((c : Thread nD τ).loc main_arg2)) (m ((c : Thread nD τ).loc main_arg3)) (m ((c : Thread nD τ).loc main_arg15)) (m ((c : Thread nD τ).loc main_arg16)) (m ((c : Thread nD τ).loc main_arg19))
      = W7 m ρ c (Proc.devRef .tc main_v81) := by
  symm
  show StableHlo.after hostOps2_2 (StableHlo.after hostOps2_1 (StableHlo.after hostOps2 (W4 m ρ c))) (Proc.devRef .tc main_v81) = _
  after_results_simp
  rw [W4_arg2, W4_arg3, W4_arg15, W4_arg16, W4_arg19]
  rfl

end Cert.Bridge

end
-- ==== Proof.lean ====
/-
  The certificate: the Pallas implementation of an adaptive-layer-norm graph block against its jnp reference.

  The program normalises node features `fv` and edge features `fe` row by row and modulates each normalised row by a
  scale and a shift that are affine in `silu` of conditioning rows (for the edges: the edge conditioning plus a node
  projection gathered at both ends of the edge); it also normalises the node positions per graph and the graph
  features. The kernel program computes the first two in two grid kernels over blocks of 1024 and 2048 rows, with the
  weight matrices transposed beforehand; the reference computes everything with whole-array operations. On the
  extended reals both are the same functions of the argument arrays:
  * entry `(r, j)` of `fv_out` is `norm(fv_r)_j · (1 + ⟨h_r, W_{256+j}⟩ + b_{256+j}) + ⟨h_r, W_j⟩ + b_j` with
    `h_r = silu (fv_c_r + fv_pos_c_r)` — a block's row is a row of the array, a matrix product into a zero accumulator is
    the reference's contraction, a sum along the columns is the reference's reduction (Bridge.result0);
  * `fe_out` likewise, its conditioning the same gather of the same projection on both sides (Bridge.result1);
  * the position and graph normalisations are the same host operations of the same arguments (Bridge.result2/3).
  No law of arithmetic beyond `0 + s = s` is used, so the precondition (finite inputs) is never opened.
  The three frames are the generated ones (the reference's is its run with the results dropped); the idealization
  rewrote nothing, so `preserves` is trivial.
-/
import proofs.«160367_j17669495456065_1_alg».proof.Defs
import proofs.«160367_j17669495456065_1_alg».proof.Proof.Gen.Kernel
import proofs.«160367_j17669495456065_1_alg».proof.Proof.Gen.Kernel.Skeleton
import proofs.«160367_j17669495456065_1_alg».proof.Proof.Gen.Kernel.Launch
import proofs.«160367_j17669495456065_1_alg».proof.Proof.Gen.Kernel.Points
import proofs.«160367_j17669495456065_1_alg».proof.Proof.Gen.Kernel.Frame
import proofs.«160367_j17669495456065_1_alg».proof.Proof.Gen.KernelIdeal
import proofs.«160367_j17669495456065_1_alg».proof.Proof.Gen.KernelIdeal.Skeleton
import proofs.«160367_j17669495456065_1_alg».proof.Proof.Gen.KernelIdeal.Launch
import proofs.«160367_j17669495456065_1_alg».proof.Proof.Gen.KernelIdeal.Points
import proofs.«160367_j17669495456065_1_alg».proof.Proof.Gen.KernelIdeal.Frame
import proofs.«160367_j17669495456065_1_alg».proof.Proof.Gen.ReferenceIdeal
import proofs.«160367_j17669495456065_1_alg».proof.Proof.Gen.Pre_finite_inputs
import proofs.«160367_j17669495456065_1_alg».proof.Proof.Gen.ReferenceIdeal.Run
import proofs.«160367_j17669495456065_1_alg».proof.Proof.Gen.ReferenceIdeal.Read
import proofs.«160367_j17669495456065_1_alg».proof.Proof.KernelRun
import proofs.«160367_j17669495456065_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

open Cert.KernelIdeal Cert.KernelIdeal.Gen in
/-- Both programs end with each result at the kernel program's final contents of its result buffer: the kernel
    program by its run, the reference because its four terms, of arguments that agree, are those contents. -/
theorem algebraic : Cert.algebraic_KernelIdeal_ReferenceIdeal := by
  intro m ρ m' ρ' _ hagree
  refine ⟨fun c => W7 m ρ c (Proc.devRef .tc main_v9_0), fun c => W7 m ρ c (Proc.devRef .tc main_v25),
    fun c => W7 m ρ c (Proc.devRef .tc main_v105), fun c => W7 m ρ c (Proc.devRef .tc main_v81), ?_, ?_⟩
  · refine (θ_run Cert.KernelIdeal.defs _ _).mono (fun r h c => ?_) (Cert.KernelIdeal.Run.run_all m ρ)
    exact ⟨h c _ (mem_uc main_v9_0 (by decide)), h c _ (mem_uc main_v25 (by decide)),
      h c _ (mem_uc main_v105 (by decide)), h c _ (mem_uc main_v81 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c),
      (h c _ (mem_uc main_arg15 (by decide))).trans (W7_main_arg15 m ρ c),
      (h c _ (mem_uc main_arg16 (by decide))).trans (W7_main_arg16 m ρ c),
      (h c _ (mem_uc main_arg17 (by decide))).trans (W7_main_arg17 m ρ c),
      (h c _ (mem_uc main_arg18 (by decide))).trans (W7_main_arg18 m ρ c),
      (h c _ (mem_uc main_arg19 (by decide))).trans (W7_main_arg19 m ρ c)⟩
  · refine (θ_run Cert.ReferenceIdeal.defs _ _).mono (fun r h c => ?_) (Cert.ReferenceIdeal.Value.run (F := Ideal) m' ρ')
    obtain ⟨h0, h1, h2, h3, hargs⟩ := h c
    obtain ⟨a0, a1, a2, a3, a4, a5, a6, a7, a8, a9, a10, a11, a12, a13, a14, a15, a16, a17, a18, a19⟩ := hagree c
    rw [a0, a4, a6, a7, a8, Cert.ReferenceIdeal.Read.val_main_v30_eq] at h0
    rw [Cert.ReferenceIdeal.Read.val_main_v81_eq, a1, a5, a6, a9, a10, a11, a12, a17, a18] at h1
    rw [a2, a13, a14, Cert.ReferenceIdeal.Read.val_main_v161_eq] at h2
    rw [Cert.ReferenceIdeal.Read.val_main_v137_eq, a2, a3, a15, a16, a19] at h3
    exact ⟨h0.trans (Cert.Bridge.result0 m ρ c), h1.trans (Cert.Bridge.result1 m ρ c),
      h2.trans (Cert.Bridge.result2 m ρ c), h3.trans (Cert.Bridge.result3 m ρ c), hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
